-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x28 : Shape := ⟨2, ![200000, 28]⟩
abbrev S2x6400000 : Shape := ⟨2, ![2, 6400000]⟩
abbrev S28x16 : Shape := ⟨2, ![28, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S200000x28 : S_.BroadcastsInDim S200000x28 (![] : Fin 0 → Fin S200000x28.rank)
  reducesTo_S200000x28_S_d0_1 : S200000x28.ReducesTo [0, 1] S_
  h_S_ : 0 < S_.numel
  bcast_S_S28x16 : S_.BroadcastsInDim S28x16 (![] : Fin 0 → Fin S28x16.rank)
  reducesTo_S28x16_S_d0_1 : S28x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S200000x28 .f32) (main_arg1 : IVec S2x6400000 32) (main_arg2 : FVec F S28x16 .f32) (main_arg3 : FVec F S16 .f32) (main_arg4 : FVec F S16x2 .f32) (main_arg5 : FVec F S2 .f32) : IVec S_ 1 :=
  let main_v0 : FVec F S200000x28 .f32 := Host.absf main_arg0
  let main_cst : FVec F S_ .f32 := constant S_ .f32 0x7F800000#32
  let main_v1 : FVec F S200000x28 .f32 := broadcastInDim S200000x28 ![] bcast_S_S200000x28 main_cst
  let main_v2 : IVec S200000x28 1 := cmpf .olt main_v0 main_v1
  let main_c : IVec S_ 1 := constantI S_ 1 1#1
  let main_v3 : IVec S_ 1 := (fun x v => Host.reduce IntOp.andi x v reducesTo_S200000x28_S_d0_1 h_S_) main_v2 main_c
  let main_v4 : FVec F S28x16 .f32 := Host.absf main_arg2
  let main_cst_0 : FVec F S_ .f32 := constant S_ .f32 0x7F800000#32
  let main_v5 : FVec F S28x16 .f32 := broadcastInDim S28x16 ![] bcast_S_S28x16 main_cst_0
  let main_v6 : IVec S28x16 1 := cmpf .olt main_v4 main_v5
  let main_c_1 : IVec S_ 1 := constantI S_ 1 1#1
  let main_v7 : IVec S_ 1 := (fun x v => Host.reduce IntOp.andi x v reducesTo_S28x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S200000x28 : Shape := ⟨2, ![200000, 28]⟩
abbrev S2x6400000 : Shape := ⟨2, ![2, 6400000]⟩
abbrev S28x16 : Shape := ⟨2, ![28, 16]⟩
abbrev S16 : Shape := ⟨1, ![16]⟩
abbrev S16x2 : Shape := ⟨2, ![16, 2]⟩
abbrev S2 : Shape := ⟨1, ![2]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x1 : Shape := ⟨2, ![200000, 1]⟩
abbrev S200000x16 : Shape := ⟨2, ![200000, 16]⟩
abbrev S8000x28 : Shape := ⟨2, ![8000, 28]⟩
abbrev S8000x1 : Shape := ⟨2, ![8000, 1]⟩
abbrev S8000x16 : Shape := ⟨2, ![8000, 16]⟩
abbrev S6600000x16 : Shape := ⟨2, ![6600000, 16]⟩
abbrev S1x16 : Shape := ⟨2, ![1, 16]⟩
abbrev S200000x2 : Shape := ⟨2, ![200000, 2]⟩
abbrev S8000x2 : Shape := ⟨2, ![8000, 2]⟩
abbrev S6600000x2 : Shape := ⟨2, ![6600000, 2]⟩
abbrev S1x2 : Shape := ⟨2, ![1, 2]⟩
abbrev S8000 : Shape := ⟨1, ![8000]⟩

abbrev nBuf : Space → Nat
  | .hbm => 63
  | .vmem => 28
  | .smem => 0
  | _ => 0

abbrev bufTy : (tb : Table) → Fin (tcTables nBuf tb) → BufTy
  | .hbm, ⟨0, _⟩ => ⟨S200000x28, .f32⟩
  | .hbm, ⟨1, _⟩ => ⟨S2x6400000, .i32⟩
  | .hbm, ⟨2, _⟩ => ⟨S28x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S200000x1, .f32⟩
  | .hbm, ⟨31, _⟩ => ⟨S200000x16, .f32⟩
  | .hbm, ⟨32, _⟩ => ⟨S_, .i32⟩
  | .hbm, ⟨33, _⟩ => ⟨S6600000, .i32⟩
  | .hbm, ⟨34, _⟩ => ⟨S6600000, .i1⟩
  | .hbm, ⟨35, _⟩ => ⟨S_, .i32⟩
  | .hbm, ⟨36, _⟩ => ⟨S6600000, .i32⟩
  | .hbm, ⟨37, _⟩ => ⟨S6600000, .i32⟩
  | .hbm, ⟨38, _⟩ => ⟨S6600000, .i32⟩
  | .hbm, ⟨39, _⟩ => ⟨S6600000x1, .i32⟩
  | .hbm, ⟨40, _⟩ => ⟨S6600000x16, .f32⟩
  | .hbm, ⟨41, _⟩ => ⟨S_, .f32⟩
  | .hbm, ⟨42, _⟩ => ⟨S200000x16, .f32⟩
  | .hbm, ⟨43, _⟩ => ⟨S6600000x1, .i32⟩
  | .hbm, ⟨44, _⟩ => ⟨S200000x16, .f32⟩
  | .hbm, ⟨45, _⟩ => ⟨S1x16, .f32⟩
  | .hbm, ⟨46, _⟩ => ⟨S200000x16, .f32⟩
  | .hbm, ⟨47, _⟩ => ⟨S200000x2, .f32⟩
  | .hbm, ⟨48, _⟩ => ⟨S_, .i32⟩
  | .hbm, ⟨49, _⟩ => ⟨S6600000, .i32⟩
  | .hbm, ⟨50, _⟩ => ⟨S6600000, .i1⟩
  | .hbm, ⟨51, _⟩ => ⟨S_, .i32⟩
  | .hbm, ⟨52, _⟩ => ⟨S6600000, .i32⟩
  | .hbm, ⟨53, _⟩ => ⟨S6600000, .i32⟩
  | .hbm, ⟨54, _⟩ => ⟨S6600000, .i32⟩
  | .hbm, ⟨55, _⟩ => ⟨S6600000x1, .i32⟩
  | .hbm, ⟨56, _⟩ => ⟨S6600000x2, .f32⟩
  | .hbm, ⟨57, _⟩ => ⟨S_, .f32⟩
  | .hbm, ⟨58, _⟩ => ⟨S200000x2, .f32⟩
  | .hbm, ⟨59, _⟩ => ⟨S6600000x1, .i32⟩
  | .hbm, ⟨60, _⟩ => ⟨S200000x2, .f32⟩
  | .hbm, ⟨61, _⟩ => ⟨S1x2, .f32⟩
  | .hbm, ⟨62, _⟩ => ⟨S200000x2, .f32⟩
  | .local _ .vmem, ⟨0, _⟩ => ⟨S8000x28, .f32⟩
  | .local _ .vmem, ⟨1, _⟩ => ⟨S8000x28, .f32⟩
  | .local _ .vmem, ⟨2, _⟩ => ⟨S28x16, .f32⟩
  | .local _ .vmem, ⟨3, _⟩ => ⟨S8000x1, .f32⟩
  | .local _ .vmem, ⟨4, _⟩ => ⟨S8000x1, .f32⟩
  | .local _ .vmem, ⟨5, _⟩ => ⟨S8000x16, .f32⟩
  | .local _ .vmem, ⟨6, _⟩ => ⟨S8000x16, .f32⟩
  | .local _ .vmem, ⟨7, _⟩ => ⟨S8000x16, .f32⟩
  | .local _ .vmem, ⟨8, _⟩ => ⟨S8000x16, .f32⟩
  | .local _ .vmem, ⟨9, _⟩ => ⟨S8000x1, .f32⟩
  | .local _ .vmem, ⟨10, _⟩ => ⟨S8000x1, .f32⟩
  | .local _ .vmem, ⟨11, _⟩ => ⟨S1x16, .f32⟩
  | .local _ .vmem, ⟨12, _⟩ => ⟨S8000x16, .f32⟩
  | .local _ .vmem, ⟨13, _⟩ => ⟨S8000x16, .f32⟩
  | .local _ .vmem, ⟨14, _⟩ => ⟨S8000x16, .f32⟩
  | .local _ .vmem, ⟨15, _⟩ => ⟨S8000x16, .f32⟩
  | .local _ .vmem, ⟨16, _⟩ => ⟨S16x2, .f32⟩
  | .local _ .vmem, ⟨17, _⟩ => ⟨S8000x1, .f32⟩
  | .local _ .vmem, ⟨18, _⟩ => ⟨S8000x1, .f32⟩
  | .local _ .vmem, ⟨19, _⟩ => ⟨S8000x2, .f32⟩
  | .local _ .vmem, ⟨20, _⟩ => ⟨S8000x2, .f32⟩
  | .local _ .vmem, ⟨21, _⟩ => ⟨S8000x2, .f32⟩
  | .local _ .vmem, ⟨22, _⟩ => ⟨S8000x2, .f32⟩
  | .local _ .vmem, ⟨23, _⟩ => ⟨S8000x1, .f32⟩
  | .local _ .vmem, ⟨24, _⟩ => ⟨S8000x1, .f32⟩
  | .local _ .vmem, ⟨25, _⟩ => ⟨S1x2, .f32⟩
  | .local _ .vmem, ⟨26, _⟩ => ⟨S8000x2, .f32⟩
  | .local _ .vmem, ⟨27, _⟩ => ⟨S8000x2, .f32⟩
  | _, _ => ⟨S200000x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S200000_S200000x1 : S200000.ShapeCasts S200000x1
  inb_S8000x28_S8000x28_0_0 : ∀ a, (![0, 0] : Fin 2 → Nat) a + S8000x28.size a ≤ S8000x28.size a
  h_S8000x28 : 0 < S8000x28.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x28 : S8000x1.Broadcasts S8000x28
  bitsLt_bf16_f32 : FTy.bits .bf16 < FTy.bits .f32
  inb_S28x16_S28x16_0_0 : ∀ a, (![0, 0] : Fin 2 → Nat) a + S28x16.size a ≤ S28x16.size a
  h_S28x16 : 0 < S28x16.numel
  inb_S8000x16_S8000x16_0_0 : ∀ a, (![0, 0] : Fin 2 → Nat) a + S8000x16.size a ≤ S8000x16.size a
  h_S8000x16 : 0 < S8000x16.numel
  bcast_S_S200000x16 : S_.BroadcastsInDim S200000x16 (![] : Fin 0 → Fin S200000x16.rank)
  shapeCasts_S16_S1x16 : S16.ShapeCasts S1x16
  shapeCasts_S8000x16_S8000x16 : S8000x16.ShapeCasts S8000x16
  broadcasts_S8000x1_S8000x16 : S8000x1.Broadcasts S8000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x2_S16x2_0_0 : ∀ a, (![0, 0] : Fin 2 → Nat) a + S16x2.size a ≤ S16x2.size a
  h_S16x2 : 0 < S16x2.numel
  inb_S8000x2_S8000x2_0_0 : ∀ a, (![0, 0] : Fin 2 → Nat) a + S8000x2.size a ≤ S8000x2.size a
  h_S8000x2 : 0 < S8000x2.numel
  bcast_S_S200000x2 : S_.BroadcastsInDim S200000x2 (![] : Fin 0 → Fin S200000x2.rank)
  shapeCasts_S2_S1x2 : S2.ShapeCasts S1x2
  shapeCasts_S8000x2_S8000x2 : S8000x2.ShapeCasts S8000x2
  broadcasts_S8000x1_S8000x2 : S8000x1.Broadcasts S8000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  reduces_S8000x2_S8000 : S8000x2.Reduces [1] S8000
  shapeCasts_S8000_S8000x1 : S8000.ShapeCasts S8000x1
  scatter_S200000_S6600000x1_S6600000_n_0_0_1_wf : ScatterDims.WF S200000 S6600000x1 S6600000 [] [0] [0] 1
  dot_S8000x28_S28x16_S8000x16_1_0_0_1_n_n_wf : DotDims.WF S8000x28 S28x16 S8000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S8000x16_S16x2_S8000x2_1_0_0_1_n_n_wf : DotDims.WF S8000x16 S16x2 S8000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x28.size a ≤ S200000x28.size a
  hwx0_0 : ∀ i : grid0.Coords, EltTy.bits .f32 = 32 ∨ (Rect.block (s := S200000x28) S8000x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S28x16.size a ≤ S28x16.size a
  hwx0_1 : ∀ i : grid0.Coords, EltTy.bits .f32 = 32 ∨ (Rect.block (s := S28x16) S28x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S200000x1.size a
  hwx0_2 : ∀ i : grid0.Coords, EltTy.bits .f32 = 32 ∨ (Rect.block (s := S200000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x16.size a ≤ S200000x16.size a
  hwx0_3 : ∀ i : grid0.Coords, EltTy.bits .f32 = 32 ∨ (Rect.block (s := S200000x16) S8000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S200000x16.size a
  hwx1_0 : ∀ i : grid1.Coords, EltTy.bits .f32 = 32 ∨ (Rect.block (s := S200000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S200000x1.size a
  hwx1_1 : ∀ i : grid1.Coords, EltTy.bits .f32 = 32 ∨ (Rect.block (s := S200000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S200000x16.size a
  hwx1_3 : ∀ i : grid1.Coords, EltTy.bits .f32 = 32 ∨ (Rect.block (s := S200000x16) S8000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S200000x16.size a
  hwx2_0 : ∀ i : grid2.Coords, EltTy.bits .f32 = 32 ∨ (Rect.block (s := S200000x16) S8000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S200000x1.size a
  hwx2_2 : ∀ i : grid2.Coords, EltTy.bits .f32 = 32 ∨ (Rect.block (s := S200000x1) S8000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x2.size a ≤ S200000x2.size a
  hwx2_3 : ∀ i : grid2.Coords, EltTy.bits .f32 = 32 ∨ (Rect.block (s := S200000x2) S8000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x2.size a ≤ S200000x2.size a
  hwx3_0 : ∀ i : grid3.Coords, EltTy.bits .f32 = 32 ∨ (Rect.block (s := S200000x2) S8000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S200000x1.size a
  hwx3_1 : ∀ i : grid3.Coords, EltTy.bits .f32 = 32 ∨ (Rect.block (s := S200000x1) S8000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x2.size a ≤ S200000x2.size a
  hwx3_3 : ∀ i : grid3.Coords, EltTy.bits .f32 = 32 ∨ (Rect.block (s := S200000x2) S8000x2.size (cc3_transform_3 i) (hinb3_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def dot_S8000x28_S28x16_S8000x16_1_0_0_1_n_n : DotDims S8000x28 S28x16 S8000x16 where
  lhsContracting := [1]
  rhsContracting := [0]
  lhsNonContracting := [0]
  rhsNonContracting := [1]
  lhsBatch := []
  rhsBatch := []
  wf := dot_S8000x28_S28x16_S8000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S8000x16_S16x2_S8000x2_1_0_0_1_n_n : DotDims S8000x16 S16x2 S8000x2 where
  lhsContracting := [1]
  rhsContracting := [0]
  lhsNonContracting := [0]
  rhsNonContracting := [1]
  lhsBatch := []
  rhsBatch := []
  wf := dot_S8000x16_S16x2_S8000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf

abbrev win0_0 : Pipeline.Window sig grid0 :=
  Pipeline.Window.ofSpec (Memref.whole main_arg0) S8000x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S28x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S8000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S8000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S8000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S8000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S200000x28 : Shape := ⟨2, ![200000, 28]⟩
abbrev S2x6400000 : Shape := ⟨2, ![2, 6400000]⟩
abbrev S28x16 : Shape := ⟨2, ![28, 16]⟩
abbrev S16 : Shape := ⟨1, ![16]⟩
abbrev S16x2 : Shape := ⟨2, ![16, 2]⟩
abbrev S2 : Shape := ⟨1, ![2]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S200000x16 : Shape := ⟨2, ![200000, 16]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x2 : Shape := ⟨2, ![200000, 2]⟩
abbrev S6600000x2 : Shape := ⟨2, ![6600000, 2]⟩
abbrev S1x2 : Shape := ⟨2, ![1, 2]⟩
abbrev S200000x1 : Shape := ⟨2, ![200000, 1]⟩

abbrev nBuf : Space → Nat
  | .hbm => 143
  | .vmem => 0
  | .smem => 0
  | _ => 0

abbrev hbmTy0_0 (i : Nat) : BufTy := match i % 128 with
  | 0 => ⟨S200000x28, .f32⟩
  | 1 => ⟨S2x6400000, .i32⟩
  | 2 => ⟨S28x16, .f32⟩
  | 3 => ⟨S16, .f32⟩
  | 4 => ⟨S16x2, .f32⟩
  | 5 => ⟨S2, .f32⟩
  | 6 => ⟨S200000, .i32⟩
  | 7 => ⟨S1x6400000, .i32⟩
  | 8 => ⟨S6400000, .i32⟩
  | 9 => ⟨S6600000, .i32⟩
  | 10 => ⟨S1x6400000, .i32⟩
  | 11 => ⟨S6400000, .i32⟩
  | 12 => ⟨S6600000, .i32⟩
  | 13 => ⟨S200000x16, .f32⟩
  | 14 => ⟨S_, .f32⟩
  | 15 => ⟨S6600000, .f32⟩
  | 16 => ⟨S_, .f32⟩
  | 17 => ⟨S200000, .f32⟩
  | 18 => ⟨S6600000x1, .i32⟩
  | 19 => ⟨S200000, .f32⟩
  | 20 => ⟨S_, .f32⟩
  | 21 => ⟨S200000, .f32⟩
  | 22 => ⟨S200000, .i1⟩
  | 23 => ⟨S_, .f32⟩
  | 24 => ⟨S200000, .f32⟩
  | 25 => ⟨S200000, .f32⟩
  | 26 => ⟨S200000, .f32⟩
  | 27 => ⟨S_, .f32⟩
  | 28 => ⟨S_, .f32⟩
  | 29 => ⟨S200000, .f32⟩
  | 30 => ⟨S200000, .f32⟩
  | 31 => ⟨S_, .i32⟩
  | 32 => ⟨S6600000, .i32⟩
  | 33 => ⟨S6600000, .i1⟩
  | 34 => ⟨S_, .i32⟩
  | 35 => ⟨S6600000, .i32⟩
  | 36 => ⟨S6600000, .i32⟩
  | 37 => ⟨S6600000, .i32⟩
  | 38 => ⟨S6600000x1, .i32⟩
  | 39 => ⟨S6600000, .f32⟩
  | 40 => ⟨S_, .i32⟩
  | 41 => ⟨S6600000, .i32⟩
  | 42 => ⟨S6600000, .i1⟩
  | 43 => ⟨S_, .i32⟩
  | 44 => ⟨S6600000, .i32⟩
  | 45 => ⟨S6600000, .i32⟩
  | 46 => ⟨S6600000, .i32⟩
  | 47 => ⟨S6600000x1, .i32⟩
  | 48 => ⟨S6600000, .f32⟩
  | 49 => ⟨S6600000, .f32⟩
  | 50 => ⟨S_, .i32⟩
  | 51 => ⟨S6600000, .i32⟩
  | 52 => ⟨S6600000, .i1⟩
  | 53 => ⟨S_, .i32⟩
  | 54 => ⟨S6600000, .i32⟩
  | 55 => ⟨S6600000, .i32⟩
  | 56 => ⟨S6600000, .i32⟩
  | 57 => ⟨S6600000x1, .i32⟩
  | 58 => ⟨S6600000x16, .f32⟩
  | 59 => ⟨S6600000x1, .f32⟩
  | 60 => ⟨S6600000x16, .f32⟩
  | 61 => ⟨S6600000x16, .f32⟩
  | 62 => ⟨S_, .f32⟩
  | 63 => ⟨S200000x16, .f32⟩
  | 64 => ⟨S6600000x1, .i32⟩
  | 65 => ⟨S200000x16, .f32⟩
  | 66 => ⟨S1x16, .f32⟩
  | 67 => ⟨S200000x16, .f32⟩
  | 68 => ⟨S200000x16, .f32⟩
  | 69 => ⟨S_, .f32⟩
  | 70 => ⟨S200000x16, .f32⟩
  | 71 => ⟨S200000x16, .f32⟩
  | 72 => ⟨S200000x2, .f32⟩
  | 73 => ⟨S_, .f32⟩
  | 74 => ⟨S6600000, .f32⟩
  | 75 => ⟨S_, .f32⟩
  | 76 => ⟨S200000, .f32⟩
  | 77 => ⟨S6600000x1, .i32⟩
  | 78 => ⟨S200000, .f32⟩
  | 79 => ⟨S_, .f32⟩
  | 80 => ⟨S200000, .f32⟩
  | 81 => ⟨S200000, .i1⟩
  | 82 => ⟨S_, .f32⟩
  | 83 => ⟨S200000, .f32⟩
  | 84 => ⟨S200000, .f32⟩
  | 85 => ⟨S200000, .f32⟩
  | 86 => ⟨S_, .f32⟩
  | 87 => ⟨S_, .f32⟩
  | 88 => ⟨S200000, .f32⟩
  | 89 => ⟨S200000, .f32⟩
  | 90 => ⟨S_, .i32⟩
  | 91 => ⟨S6600000, .i32⟩
  | 92 => ⟨S6600000, .i1⟩
  | 93 => ⟨S_, .i32⟩
  | 94 => ⟨S6600000, .i32⟩
  | 95 => ⟨S6600000, .i32⟩
  | 96 => ⟨S6600000, .i32⟩
  | 97 => ⟨S6600000x1, .i32⟩
  | 98 => ⟨S6600000, .f32⟩
  | 99 => ⟨S_, .i32⟩
  | 100 => ⟨S6600000, .i32⟩
  | 101 => ⟨S6600000, .i1⟩
  | 102 => ⟨S_, .i32⟩
  | 103 => ⟨S6600000, .i32⟩
  | 104 => ⟨S6600000, .i32⟩
  | 105 => ⟨S6600000, .i32⟩
  | 106 => ⟨S6600000x1, .i32⟩
  | 107 => ⟨S6600000, .f32⟩
  | 108 => ⟨S6600000, .f32⟩
  | 109 => ⟨S_, .i32⟩
  | 110 => ⟨S6600000, .i32⟩
  | 111 => ⟨S6600000, .i1⟩
  | 112 => ⟨S_, .i32⟩
  | 113 => ⟨S6600000, .i32⟩
  | 114 => ⟨S6600000, .i32⟩
  | 115 => ⟨S6600000, .i32⟩
  | 116 => ⟨S6600000x1, .i32⟩
  | 117 => ⟨S6600000x2, .f32⟩
  | 118 => ⟨S6600000x1, .f32⟩
  | 119 => ⟨S6600000x2, .f32⟩
  | 120 => ⟨S6600000x2, .f32⟩
  | 121 => ⟨S_, .f32⟩
  | 122 => ⟨S200000x2, .f32⟩
  | 123 => ⟨S6600000x1, .i32⟩
  | 124 => ⟨S200000x2, .f32⟩
  | 125 => ⟨S1x2, .f32⟩
  | 126 => ⟨S200000x2, .f32⟩
  | 127 => ⟨S200000x2, .f32⟩
  | _ => ⟨S200000x28, .f32⟩

abbrev hbmTy0_1 (i : Nat) : BufTy := match i % 128 with
  | 0 => ⟨S_, .f32⟩
  | 1 => ⟨S200000, .f32⟩
  | 2 => ⟨S_, .f32⟩
  | 3 => ⟨S200000, .f32⟩
  | 4 => ⟨S200000, .f32⟩
  | 5 => ⟨S200000x1, .f32⟩
  | 6 => ⟨S200000x2, .f32⟩
  | 7 => ⟨S200000x2, .f32⟩
  | 8 => ⟨S200000x2, .f32⟩
  | 9 => ⟨S_, .f32⟩
  | 10 => ⟨S200000, .f32⟩
  | 11 => ⟨S200000x1, .f32⟩
  | 12 => ⟨S200000x1, .f32⟩
  | 13 => ⟨S200000x2, .f32⟩
  | 14 => ⟨S200000x2, .f32⟩
  | _ => ⟨S200000x28, .f32⟩

abbrev hbmTy (i : Nat) : BufTy := match i / 128 with
  | 0 => hbmTy0_0 i
  | 1 => hbmTy0_1 i
  | _ => ⟨S200000x28, .f32⟩

abbrev bufTy : (tb : Table) → Fin (tcTables nBuf tb) → BufTy
  | .hbm, ⟨i, _⟩ => hbmTy i
  | _, _ => ⟨S200000x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000_S200000x1_0 : S200000.BroadcastsInDim S200000x1 (![0] : Fin 1 → Fin S200000x1.rank)
  bcast_S200000x1_S200000x2_0_1 : S200000x1.BroadcastsInDim S200000x2 (![0, 1] : Fin 2 → Fin S200000x2.rank)
  dot_S200000x28_S28x16_S200000x16_1_0_0_1_n_n_wf : DotDims.WF S200000x28 S28x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x2_S200000x2_1_0_0_1_n_n_wf : DotDims.WF S200000x16 S16x2 S200000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1

variable [Facts₀]

def dot_S200000x28_S28x16_S200000x16_1_0_0_1_n_n : DotDims S200000x28 S28x16 S200000x16 where
  lhsContracting := [1]
  rhsContracting := [0]
  lhsNonContracting := [0]
  rhsNonContracting := [1]
  lhsBatch := []
  rhsBatch := []
  wf := dot_S200000x28_S28x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf

class Facts : Prop extends Facts₀ where

variable [Facts]
-- ==== Proof.KernelRun.lean ====
/-
  The idealized kernel program's run with its result NAMED: every weakly fair execution of @main terminates without a
  fault, the result array ends at the contents the last of the four regions leaves in it (the fold of the regions'
  write-backs and the host operations between them, from the launch memory), and the six argument arrays end as
  launched. The statement is the frame's with one more conjunct, read off the same final thread state.
-/
import proofs.«102351_j24489903522241_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_named : θ_run defs (onTc (τ := τ) (main (F := F))) ⟨m, fun _ => 0, ρ⟩ (fun r => ∀ c : Dev nD,
      r.2.mem ((c.tc : Thread nD τ).loc main_v43) = W9 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v43 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibMeanProj.lean ====
/-
  Mean aggregation commutes with a linear projection, for real data read on the extended reals.

  Let `L` be a finite set of neighbours, `g e k` the `k`-th real feature of neighbour `e`, `w k` a real weight and
  `d ≠ 0` a real count. Projecting every neighbour first and averaging the projections,

      (0 + ∑ e ∈ L, ∑ k, g e k · w k) / d,

  gives what averaging every feature first and projecting the averages gives,

      ∑ k, ((0 + ∑ e ∈ L, g e k) / d) · w k.

  On the reals this is distributivity and an exchange of the two sums. On the extended reals it needs every factor to be
  real (at an infinity distributivity fails), which is why the statement is about images of reals. The division is the
  extended reals' own, `Ideal.div`, which by a nonzero real is the product with its reciprocal.

  Also here: the closure of "is the image of a real" under the operations a dense layer uses.
-/
import Idealize.ShloMosaic.PureOps.Ideal
import proofs.«102351_j24489903522241_1_alg».proof.Proof.LibSumSwap

noncomputable section

open scoped BigOperators

namespace Cert.LibMeanProj

open Idealize.ShloMosaic

/-- A real divided by a nonzero real, on the extended reals, is the image of the real quotient. -/
theorem div_coe_coe (a d : ℝ) (hd : d ≠ 0) : Ideal.div (a : EReal) (d : EReal) = ((a / d : ℝ) : EReal) := by
  rw [Ideal.div_coe hd, ← EReal.coe_mul, mul_one_div]

/-- Projecting then averaging is averaging then projecting. -/
theorem mean_proj {ι κ : Type*} [Fintype κ] (L : Finset ι) (g : ι → κ → ℝ) (w : κ → ℝ) (d : ℝ) (hd : d ≠ 0) :
    Ideal.div (0 + ∑ e ∈ L, ∑ k, (g e k : EReal) * (w k : EReal)) (d : EReal)
      = ∑ k, Ideal.div (0 + ∑ e ∈ L, (g e k : EReal)) (d : EReal) * (w k : EReal) := by
  have hl : (∑ e ∈ L, ∑ k, (g e k : EReal) * (w k : EReal)) = ((∑ e ∈ L, ∑ k, g e k * w k : ℝ) : EReal) := by
    rw [SumSwap.coe_sum]
    refine Finset.sum_congr rfl fun e _ => ?_
    rw [SumSwap.coe_sum]
    exact Finset.sum_congr rfl fun k _ => (EReal.coe_mul _ _).symm
  have hk : ∀ k, Ideal.div (0 + ∑ e ∈ L, (g e k : EReal)) (d : EReal) * (w k : EReal)
      = (((∑ e ∈ L, g e k) / d * w k : ℝ) : EReal) := fun k => by
    rw [zero_add, ← SumSwap.coe_sum, div_coe_coe _ _ hd, ← EReal.coe_mul]
  rw [zero_add, hl, div_coe_coe _ _ hd]
  simp only [hk]
  rw [← SumSwap.coe_sum]
  congr 1
  rw [Finset.sum_comm, Finset.sum_div]
  refine Finset.sum_congr rfl fun k _ => ?_
  rw [← Finset.sum_mul, mul_div_right_comm]

/-! ## Images of reals -/

/-- An extended real that is the image of a real number. -/
def IsReal (v : EReal) : Prop := ∃ r : ℝ, v = (r : EReal)

theorem isReal_coe (r : ℝ) : IsReal (r : EReal) := ⟨r, rfl⟩
theorem isReal_zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert i s hi ih =>
    rw [Finset.sum_insert hi]
    exact (hf i (Finset.mem_insert_self i s)).add (ih fun j hj => hf j (Finset.mem_insert_of_mem hj))

theorem IsReal.div {a : EReal} (ha : IsReal a) (d : ℝ) (hd : d ≠ 0) : IsReal (Ideal.div a (d : EReal)) := by
  obtain ⟨x, rfl⟩ := ha; exact ⟨x / d, div_coe_coe x d hd⟩

end Cert.LibMeanProj

end
-- ==== Proof.FiniteInputs.lean ====
/-
  What the precondition gives: every entry of the five float arguments is a real number. The precondition is a
  conjunction of five "all entries have absolute value below +∞"; a word-level `and` that is one has both operands one,
  an `all` that is one has every entry one, and an extended real whose absolute value is below +∞ is neither
  infinity.
-/
import proofs.«102351_j24489903522241_1_alg».proof.Pre_finite_inputs
import proofs.«102351_j24489903522241_1_alg».proof.Proof.Gen.Pre_finite_inputs
import proofs.«102351_j24489903522241_1_alg».proof.Proof.LibMeanProj
import Idealize.ShloMosaic.Lib.ReduceAll
import Idealize.ShloMosaic.Lib.ValueIdx
import Idealize.ShloMosaic.PureOps.Ideal.Laws

noncomputable section

namespace Cert.Pre_finite_inputs.Reals

open Cert.Pre_finite_inputs Cert.Pre_finite_inputs.Facts
open Idealize.ShloMosaic Idealize.ShloMosaic.ValueIdx
open Cert.LibMeanProj (IsReal)

instance : Subsingleton S_.Idx := ⟨fun a b => funext fun d => d.elim0⟩

theorem andi_one (c d : BitVec 1) : IntOp.andi c d = 1#1 ↔ c = 1#1 ∧ d = 1#1 := by revert c d; decide

/-- The word of +∞ denotes the top of the extended reals. -/
theorem inf_word : Ideal.ofBits .f32 0x7F800000#32 = (⊤ : EReal) := by simp [Ideal.ofBits, Ideal.ieee]

/-- An extended real whose absolute value compares below +∞ is a real number. -/
theorem isReal_of_abs_lt (x : EReal)
    (h : FloatOps.cmpf (F := Ideal) .olt (FloatOps.hostAbsf (F := Ideal) (φ := .f32) x) (Ideal.ofBits .f32 0x7F800000#32) = 1#1) :
    IsReal x := by
  rw [Ideal.hostAbsf_def, Ideal.cmpf_def, Ideal.absf_def, inf_word] at h
  have h' : max x (-x) < (⊤ : EReal) := by
    simp only [Ideal.cmp] at h
    cases hb : decide (max x (-x) < (⊤ : EReal)) with
    | true => exact of_decide_eq_true hb
    | false => rw [hb] at h; exact absurd h (by decide)
  induction x using EReal.rec with
  | bot => simp at h'
  | coe r => exact ⟨r, rfl⟩
  | top => simp at h'

/-- One conjunct of the precondition: all entries of `a` are real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) (j : s.Idx) : IsReal (a j) :=
  isReal_of_abs_lt (a j) (Host.reduce_andi_all _ _ hr hu ix0 e j)

/-- THE PRECONDITION READ: every entry of every float argument is a real number. -/
theorem reals_of_pre (a0 : FVec Ideal S200000x28 .f32) (a1 : IVec S2x6400000 32) (a2 : FVec Ideal S28x16 .f32)
    (a3 : FVec Ideal S16 .f32) (a4 : FVec Ideal S16x2 .f32) (a5 : FVec Ideal S2 .f32)
    (h : fn (F := Ideal) a0 a1 a2 a3 a4 a5 = fun _ => 1#1) :
    (∀ j, IsReal (a0 j)) ∧ (∀ j, IsReal (a2 j)) ∧ (∀ j, IsReal (a3 j)) ∧ (∀ j, IsReal (a4 j)) ∧ (∀ j, IsReal (a5 j)) := by
  have h0 := congrFun h ix0
  dsimp only [fn, fn_part1] at h0
  obtain ⟨h0123, h5⟩ := (andi_one _ _).mp h0
  obtain ⟨h012, h4⟩ := (andi_one _ _).mp h0123
  obtain ⟨h01, h3⟩ := (andi_one _ _).mp h012
  obtain ⟨h00, h2⟩ := (andi_one _ _).mp h01
  exact ⟨all_real a0 _ _ _ h00, all_real a2 _ _ _ h2, all_real a3 _ _ _ h3, all_real a4 _ _ _ h4,
    all_real a5 _ _ _ h5⟩

end Cert.Pre_finite_inputs.Reals

end
-- ==== Proof.KernelCarry.lean ====
/-
  Which buffers the idealized kernel program carries unchanged from one boundary of @main to another: a host operation
  writes only its result, a region writes only its output array, so the per-node scale column written before the first
  region, the two edge-endpoint vectors and the argument arrays are read at every later boundary as first written.
-/
import proofs.«102351_j24489903522241_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A stretch of host operations leaves a buffer that none of them writes as it found it. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The scale column `main_v17`: written before region 0, an input window of every region -/

theorem v17_W4 : W4 m ρ c (Proc.devRef .tc main_v17) = W3 m ρ c (Proc.devRef .tc main_v17) :=
  (W4_arr m ρ c 2).trans (((dat0 (V3 m ρ) c).arrAt_in 2 rfl _).trans (A_eq0 (V3 m ρ) c 2))
theorem v17_W5 : W5 m ρ c (Proc.devRef .tc main_v17) = W3 m ρ c (Proc.devRef .tc main_v17) :=
  (show W5 m ρ c (Proc.devRef .tc main_v17) = W4 m ρ c (Proc.devRef .tc main_v17) by host_keeps hostOps1).trans
    (v17_W4 m ρ c)
theorem v17_W6 : W6 m ρ c (Proc.devRef .tc main_v17) = W3 m ρ c (Proc.devRef .tc main_v17) :=
  ((W6_arr m ρ c 1).trans (((dat1 (V5 m ρ) c).arrAt_in 1 rfl _).trans (A_eq1 (V5 m ρ) c 1))).trans (v17_W5 m ρ c)
theorem v17_W7 : W7 m ρ c (Proc.devRef .tc main_v17) = W3 m ρ c (Proc.devRef .tc main_v17) :=
  ((W7_arr m ρ c 2).trans (((dat2 (V6 m ρ) c).arrAt_in 2 rfl _).trans (A_eq2 (V6 m ρ) c 2))).trans (v17_W6 m ρ c)
theorem v17_W8 : W8 m ρ c (Proc.devRef .tc main_v17) = W3 m ρ c (Proc.devRef .tc main_v17) :=
  (show W8 m ρ c (Proc.devRef .tc main_v17) = W7 m ρ c (Proc.devRef .tc main_v17) by host_keeps hostOps3).trans
    (v17_W7 m ρ c)

/-! ## The edge endpoints `main_v3` (sources) and `main_v6` (destinations): written by the first stretch -/

theorem v3_W4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
theorem v6_W4 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by host_keeps hostOps0_2
    _ = W1 m ρ c (Proc.devRef .tc main_v6) := by host_keeps hostOps0_1
theorem v3_W7 : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = W1 m ρ c (Proc.devRef .tc main_v3) := v3_W4 m ρ c
theorem v6_W7 : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = W1 m ρ c (Proc.devRef .tc main_v6) := v6_W4 m ρ c

/-! ## The argument arrays, each where a region or a host operation reads it -/

theorem arg0_W3 : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl
theorem arg2_W3 : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl
theorem arg3_W4 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl
theorem arg4_W6 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl
theorem arg5_W7 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

end Cert.KernelIdeal.Carry

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.LibGatherVec.lean ====
/-
  A gather `x[idx]` of a vector `x : [N]` on the host, read at an index.

  `x[idx]` for a vector `x` and an integer array `idx` lowers to a gather with one collapsed axis (the vector's only
  axis), no offset axis (each start index picks one scalar) and a trailing index-vector axis of extent one on the
  start indices. Result entry `r` is the vector's entry at the position the start index names: the start index is
  read as a signed integer and clamped into `[0, N − 1]`, so every integer names a position. The statement takes the
  dimension numbers as a record built from the literal lists; a printed record with the same lists is equal to it by
  `rfl`.
-/
import Idealize.ShloMosaic.Lib.ValueIdx
import proofs.«102351_j24489903522241_1_alg».proof.Proof.LibGatherRows

noncomputable section

namespace Cert.LibGatherVec

open Idealize.ShloMosaic Idealize.ShloMosaic.ValueIdx
open Cert.LibGatherRows (clampRow)

variable {α : Type}

/-- The dimension numbers of `x[idx]` for a vector `[N]` and start indices `[R, 1]`, result `[R]`. -/
abbrev vecDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section Vec
variable {N R w : ℕ}
  (wf : GatherDims.WF ⟨1, ![N]⟩ ⟨2, ![R, 1]⟩ ⟨1, ![R]⟩ [] [0] [] [0] [] 1 ![1])
  (idx : IVec ⟨2, ![R, 1]⟩ w) (r : Fin R)

/-- On the vector's axis the operand coordinate is the clamped start index: no batching, and the axis is collapsed. -/
theorem vec_axis0 :
    (vecDims N R wf).start (ix1 r) idx 0 + (vecDims N R wf).batchCoord (ix1 r) 0
      + (vecDims N R wf).offCoord (ix1 r) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Vec

/-- Entry `r` of the gather is the vector's entry at the clamped start index `idx (r, 0)`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (clampRow N hN (idx (ix2 r (0 : Fin 1))))) := by
  unfold Host.gather
  congr 1
  funext a
  refine Fin.ext ?_
  match a with
  | ⟨0, _⟩ => exact vec_axis0 wf idx r

end Cert.LibGatherVec

end
-- ==== Proof.LibGatheredSums.lean ====
/-
  Three small tools for sums of gathered rows on the extended reals.

  * A host gather of rows of a table `[N, D]`, or of entries of a vector `[N]`, by a one-column table of start indices,
    read at an index through ANY record of dimension numbers that equals the row-gather (vector-gather) record: entry
    `(r, q)` is the table's entry `(row, q)`, `row` the start index read signed and clamped into `[0, N − 1]`.
  * A vector made a column by one `broadcast_in_dim` and the column spread over `b` columns by a second one reads, at
    `(p, q)`, the vector at `p`.
  * A real factor moves across a finite sum of products of reals: `(0 + ∑ h·z)·y = 0 + ∑ h·(z·y)`. On the extended reals
    this needs every term real — `⊤·0` and `⊤ + ⊥` are where the law fails — and then it is the law of the real numbers.
-/
import proofs.«102351_j24489903522241_1_alg».proof.Proof.LibGatherRows
import proofs.«102351_j24489903522241_1_alg».proof.Proof.LibGatherVec
import proofs.«102351_j24489903522241_1_alg».proof.Proof.LibMeanProj
import Idealize.ShloMosaic.Lib.Pipeline.Value
import Idealize.ShloMosaic.Lib.ValueIdx

noncomputable section

open scoped BigOperators

namespace Cert.LibGatheredSums

open Idealize.ShloMosaic Idealize.ShloMosaic.ValueIdx
open Cert.LibGatherRows (clampRow)
open Cert.LibMeanProj (IsReal)

/-- A row gather through any record with the row-gather dimension numbers, at `(r, q)`. -/
theorem gather_rows_at {α : Type} {N D R w : ℕ} (g : GatherDims ⟨2, ![N, D]⟩ ⟨2, ![R, 1]⟩ ⟨2, ![R, D]⟩)
    {wf : GatherDims.WF ⟨2, ![N, D]⟩ ⟨2, ![R, 1]⟩ ⟨2, ![R, D]⟩ [1] [0] [] [0] [] 1 ![1, D]}
    (hg : g = Cert.LibGatherRows.rowDims2 N D R wf) (hN : 0 < N) (x : (⟨2, ![N, D]⟩ : Shape).Idx → α) (idx : IVec ⟨2, ![R, 1]⟩ w)
    (r : Fin R) (q : Fin D) : Host.gather g x idx (ix2 r q) = x (ix2 (clampRow N hN (idx (ix2 r (0 : Fin 1)))) q) := by
  subst hg
  exact Cert.LibGatherRows.gather_rows2_apply hN wf x idx r q

/-- A vector gather through any record with the vector-gather dimension numbers, at `r`. -/
theorem gather_vec_at {α : Type} {N R w : ℕ} (g : GatherDims ⟨1, ![N]⟩ ⟨2, ![R, 1]⟩ ⟨1, ![R]⟩)
    {wf : GatherDims.WF ⟨1, ![N]⟩ ⟨2, ![R, 1]⟩ ⟨1, ![R]⟩ [] [0] [] [0] [] 1 ![1]}
    (hg : g = Cert.LibGatherVec.vecDims N R wf) (hN : 0 < N) (x : (⟨1, ![N]⟩ : Shape).Idx → α) (idx : IVec ⟨2, ![R, 1]⟩ w)
    (r : Fin R) : Host.gather g x idx (ix1 r) = x (ix1 (clampRow N hN (idx (ix2 r (0 : Fin 1))))) := by
  subst hg
  exact Cert.LibGatherVec.gather_vec_apply hN wf x idx r

/-- A vector made a column and the column spread over `b` columns reads, at `(p, q)`, the vector at `p`. -/
theorem spread_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  have e2 : broadcastInDim ⟨2, ![a, b]⟩ ![0, 1] h2 (broadcastInDim ⟨2, ![a, 1]⟩ ![0] h1 v) (ix2 p q)
      = broadcastInDim ⟨2, ![a, 1]⟩ ![0] h1 v (ix2 p (0 : Fin 1)) := by
    refine broadcastInDim_apply ![0, 1] h2 _ (ix2 p q) (ix2 p (0 : Fin 1)) fun ax => ?_
    match ax with
    | ⟨0, _⟩ =>
      show p.val = if a = 1 then 0 else p.val
      split
      · have := p.isLt; omega
      · rfl
    | ⟨1, _⟩ => rfl
  have e1 : broadcastInDim ⟨2, ![a, 1]⟩ ![0] h1 v (ix2 p (0 : Fin 1)) = v (ix1 p) := by
    refine broadcastInDim_apply ![0] h1 v (ix2 p (0 : Fin 1)) (ix1 p) fun ax => ?_
    match ax with
    | ⟨0, _⟩ =>
      show p.val = if a = 1 then 0 else p.val
      split
      · have := p.isLt; omega
      · rfl
  rw [e2, e1]

/-- A real factor moves across a finite sum of products of reals. -/
theorem factor_out {ι : Type*} (L : Finset ι) (h z : ι → EReal) (y : EReal)
    (hh : ∀ e ∈ L, IsReal (h e)) (hz : ∀ e ∈ L, IsReal (z e)) (hy : IsReal y) :
    ((0 : EReal) + ∑ e ∈ L, h e * z e) * y = (0 : EReal) + ∑ e ∈ L, h e * (z e * y) := by
  classical
  obtain ⟨yr, rfl⟩ := hy
  rw [zero_add, zero_add]
  have hsum : ∀ (M : Finset ι), M ⊆ L → (∑ e ∈ M, h e * z e) * (yr : EReal) = ∑ e ∈ M, h e * (z e * (yr : EReal)) := by
    intro M
    induction M using Finset.induction_on with
    | empty => intro _; simp
    | insert a M ha ih =>
      intro hsub
      have haL : a ∈ L := hsub (Finset.mem_insert_self a M)
      obtain ⟨hr, hhr⟩ := hh a haL
      obtain ⟨zr, hzr⟩ := hz a haL
      have hM : IsReal (∑ e ∈ M, h e * z e) :=
        IsReal.sum _ _ fun e he => IsReal.mul (hh e (hsub (Finset.mem_insert_of_mem he))) (hz e (hsub (Finset.mem_insert_of_mem he)))
      obtain ⟨sr, hsr⟩ := hM
      rw [Finset.sum_insert ha, Finset.sum_insert ha, ← ih (fun e he => hsub (Finset.mem_insert_of_mem he)), hsr, hhr, hzr]
      simp only [← EReal.coe_mul, ← EReal.coe_add]
      congr 1; ring
  exact hsum L (Finset.Subset.refl L)

end Cert.LibGatheredSums

end
-- ==== Proof.GraphLayer.lean ====
/-
  One graph-convolution layer on the extended reals, in the two arrangements the two programs compute, and the law that
  joins them on real data.

  Nodes are numbered `0 … 199999`; an edge list of `6600000` entries gives each edge a source and a destination as
  32-bit words. A word names the node its signed value is clamped to (`node`); an edge contributes to node `n` when
  its destination word, read signed, is exactly `n` (`landing`: an edge whose destination is out of range contributes
  nowhere). With `dis` the per-node scale (the inverse square root of the degree), `h` the node features, `w` the
  weights and `b` the bias:

    scaled first   :  ( ∑ over edges e into n of ∑ₖ (h (src e) k · dis (src e)) · w k f ) · dis n + b f
    scaled per edge:  ( ∑ over edges e into n of (∑ₖ h (src e) k · w k f) · (dis (src e) · dis (dst e)) ) + b f

  On real data these agree: `dis (src e)` moves out of the inner sum, an edge into `n` has `dst e = n`, and the
  real factor `dis n` moves into the sum over edges.
-/
import Idealize.ShloMosaic.PureOps.Ideal.Laws
import Idealize.ShloMosaic.Lib.ValueIdx
import proofs.«102351_j24489903522241_1_alg».proof.Proof.LibScatterAddRows
import proofs.«102351_j24489903522241_1_alg».proof.Proof.LibGatherRows
import proofs.«102351_j24489903522241_1_alg».proof.Proof.LibMeanProj
import proofs.«102351_j24489903522241_1_alg».proof.Proof.LibSumSwap
import proofs.«102351_j24489903522241_1_alg».proof.Proof.LibGatheredSums

noncomputable section

open scoped BigOperators

namespace Cert.GraphConv

open Idealize.ShloMosaic Idealize.ShloMosaic.ValueIdx
open Cert.LibScatterAddRows (landing)
open Cert.LibGatherRows (clampRow)
open Cert.LibMeanProj (IsReal)

/-- The number of nodes. -/
abbrev Nn : ℕ := 200000
/-- The number of edges, self loops included. -/
abbrev Ne : ℕ := 6600000

theorem Nn_pos : 0 < Nn := by norm_num

/-- The node that entry `e` of a column of index words names: its signed value clamped into the node range. -/
def node (idx : IVec ⟨2, ![Ne, 1]⟩ 32) (e : Fin Ne) : Fin Nn :=
  clampRow Nn Nn_pos (idx (ix2 e (0 : Fin 1)))

/-- The layer with the rows scaled before the projection and the aggregate scaled after it. -/
def layerK {K D : ℕ} (src dst : IVec ⟨2, ![Ne, 1]⟩ 32) (dis : Fin Nn → EReal) (h : Fin Nn → Fin K → EReal)
    (w : Fin K → Fin D → EReal) (b : Fin D → EReal) (n : Fin Nn) (f : Fin D) : EReal :=
  (0 + ∑ e ∈ landing dst n.val, ∑ k : Fin K, (h (node src e) k * dis (node src e)) * w k f) * dis n + b f

/-- The layer with every edge's projected row scaled by the product of its two end nodes' scales. The source node is
    named through `src` for the features and through `srcG` for the scale, the destination through `dstG`. -/
def layerR {K D : ℕ} (src srcG dstG dst : IVec ⟨2, ![Ne, 1]⟩ 32) (dis : Fin Nn → EReal) (h : Fin Nn → Fin K → EReal)
    (w : Fin K → Fin D → EReal) (b : Fin D → EReal) (n : Fin Nn) (f : Fin D) : EReal :=
  (0 + ∑ e ∈ landing dst n.val, (∑ k : Fin K, h (node src e) k * w k f) * (dis (node srcG e) * dis (node dstG e))) + b f

/-- A real scale common to every term of an inner product of reals moves out of it. -/
theorem scale_out {K : ℕ} (a w : Fin K → EReal) (d : EReal) (ha : ∀ k, IsReal (a k)) (hw : ∀ k, IsReal (w k))
    (hd : IsReal d) : ∑ k, (a k * d) * w k = (∑ k, a k * w k) * d := by
  have ha' : ∀ k, ∃ r : ℝ, a k = (r : EReal) := ha
  have hw' : ∀ k, ∃ r : ℝ, w k = (r : EReal) := hw
  choose ar har using ha'
  choose wr hwr using hw'
  obtain ⟨dr, rfl⟩ := hd
  have e1 : ∀ k, (a k * (dr : EReal)) * w k = ((ar k * dr * wr k : ℝ) : EReal) := fun k => by
    rw [har k, hwr k, ← EReal.coe_mul, ← EReal.coe_mul]
  have e2 : ∀ k, a k * w k = ((ar k * wr k : ℝ) : EReal) := fun k => by rw [har k, hwr k, ← EReal.coe_mul]
  simp only [e1, e2]
  rw [← SumSwap.coe_sum, ← SumSwap.coe_sum, ← EReal.coe_mul, Finset.sum_mul]
  exact congrArg (fun r : ℝ => (r : EReal)) (Finset.sum_congr rfl fun k _ => by ring)

/-- THE LAW: on real data the two arrangements of a layer agree, provided every edge into `n` names `n` as its
    destination also through the clamped reading `dstG`. -/
theorem layerK_eq_layerR {K D : ℕ} (src dstG dst : IVec ⟨2, ![Ne, 1]⟩ 32) (dis : Fin Nn → EReal)
    (h : Fin Nn → Fin K → EReal) (w : Fin K → Fin D → EReal) (b : Fin D → EReal)
    (hdis : ∀ i, IsReal (dis i)) (hh : ∀ i k, IsReal (h i k)) (hw : ∀ k f, IsReal (w k f))
    (hdst : ∀ (n : Fin Nn) (e : Fin Ne), e ∈ landing dst n.val → node dstG e = n) (n : Fin Nn) (f : Fin D) :
    layerK src dst dis h w b n f = layerR src src dstG dst dis h w b n f := by
  unfold layerK layerR
  refine congrArg (fun v : EReal => v + b f) ?_
  have e1 : ∀ e ∈ landing dst n.val, (∑ k : Fin K, (h (node src e) k * dis (node src e)) * w k f)
      = (∑ k : Fin K, h (node src e) k * w k f) * dis (node src e) := fun e _ =>
    scale_out (fun k => h (node src e) k) (fun k => w k f) (dis (node src e)) (fun k => hh _ k) (fun k => hw k f)
      (hdis _)
  have e2 : ∀ e ∈ landing dst n.val,
      (∑ k : Fin K, h (node src e) k * w k f) * (dis (node src e) * dis (node dstG e))
        = (∑ k : Fin K, h (node src e) k * w k f) * (dis (node src e) * dis n) := fun e he => by
    rw [hdst n e he]
  rw [Finset.sum_congr rfl e1, Finset.sum_congr rfl e2]
  exact Cert.LibGatheredSums.factor_out (landing dst n.val) (fun e => ∑ k : Fin K, h (node src e) k * w k f)
    (fun e => dis (node src e)) (dis n)
    (fun e _ => IsReal.sum _ _ fun k _ => (hh _ k).mul (hw k f)) (fun e _ => hdis _) (hdis n)

/-- A layer of real data is real. -/
theorem isReal_layerK {K D : ℕ} (src dst : IVec ⟨2, ![Ne, 1]⟩ 32) (dis : Fin Nn → EReal)
    (h : Fin Nn → Fin K → EReal) (w : Fin K → Fin D → EReal) (b : Fin D → EReal)
    (hdis : ∀ i, IsReal (dis i)) (hh : ∀ i k, IsReal (h i k)) (hw : ∀ k f, IsReal (w k f)) (hb : ∀ f, IsReal (b f))
    (n : Fin Nn) (f : Fin D) : IsReal (layerK src dst dis h w b n f) := by
  unfold layerK
  exact ((Cert.LibMeanProj.isReal_zero.add (IsReal.sum _ _ fun e _ => IsReal.sum _ _ fun k _ =>
    ((hh _ k).mul (hdis _)).mul (hw k f))).mul (hdis n)).add (hb f)

end Cert.GraphConv

end
-- ==== Proof.EdgeIndex.lean ====
/-
  The two columns of index words the programs build from a vector `v` of edge endpoints: the column itself, which a
  scatter reads (an endpoint lands on the node its signed value names, or nowhere), and the column of wrapped endpoints
  `if v < 0 then v + 200000 else v`, which a gather reads (clamped into the node range). An edge that lands on node
  `n` through the first column names `n` through the second as well: its endpoint is `n ≥ 0`, so it is not
  wrapped, and clamping leaves `n < 200000` alone.
-/
import Idealize.ShloMosaic.Lib.Pipeline.Value
import Idealize.ShloMosaic.Lib.ValueIdx
import proofs.«102351_j24489903522241_1_alg».proof.Proof.GraphLayer
import proofs.«102351_j24489903522241_1_alg».proof.Proof.LibGatheredSums
import proofs.«102351_j24489903522241_1_alg».proof.Proof.LibScatterAddRows

noncomputable section

open scoped BigOperators

namespace Cert.GraphConv

open Idealize.ShloMosaic Idealize.ShloMosaic.ValueIdx
open Cert.LibScatterAddRows (landing)
open Cert.LibGatherRows (clampRow)

variable (hcol : (⟨1, ![Ne]⟩ : Shape).BroadcastsInDim ⟨2, ![Ne, 1]⟩ ![0])
  (hsc : (⟨0, ![]⟩ : Shape).BroadcastsInDim ⟨1, ![Ne]⟩ (![] : Fin 0 → Fin 1))

/-- The endpoints as a column: what a scatter over the edges reads. -/
def scatIdx (v : IVec ⟨1, ![Ne]⟩ 32) : IVec ⟨2, ![Ne, 1]⟩ 32 :=
  broadcastInDim ⟨2, ![Ne, 1]⟩ ![0] hcol v

/-- The endpoints wrapped (a negative one moved up by the number of nodes) as a column: what a gather reads. -/
def startIdx (v : IVec ⟨1, ![Ne]⟩ 32) : IVec ⟨2, ![Ne, 1]⟩ 32 :=
  broadcastInDim ⟨2, ![Ne, 1]⟩ ![0] hcol
    (select (cmpi .slt v (broadcastInDim ⟨1, ![Ne]⟩ ![] hsc (constantI ⟨0, ![]⟩ 32 0#32)))
      (addi v (broadcastInDim ⟨1, ![Ne]⟩ ![] hsc (constantI ⟨0, ![]⟩ 32 200000#32))) v)

theorem column_apply {α : Type} (x : (⟨1, ![Ne]⟩ : Shape).Idx → α) (e : Fin Ne) :
    broadcastInDim ⟨2, ![Ne, 1]⟩ ![0] hcol x (ix2 e (0 : Fin 1)) = x (ix1 e) :=
  broadcastInDim_apply _ hcol x (ix2 e (0 : Fin 1)) (ix1 e) (fun a => match a with
    | ⟨0, _⟩ => by show e.val = if (Ne : Nat) = 1 then 0 else e.val; rw [if_neg (by decide)])

theorem scatIdx_apply (v : IVec ⟨1, ![Ne]⟩ 32) (e : Fin Ne) : scatIdx hcol v (ix2 e (0 : Fin 1)) = v (ix1 e) :=
  column_apply hcol v e

theorem startIdx_apply (v : IVec ⟨1, ![Ne]⟩ 32) (e : Fin Ne) :
    startIdx hcol hsc v (ix2 e (0 : Fin 1))
      = Scalar.select (IntOp.cmpi .slt (v (ix1 e)) 0#32) (IntOp.addi (v (ix1 e)) 200000#32) (v (ix1 e)) := by
  unfold startIdx
  rw [column_apply]
  rfl

/-- An edge that lands on node `n` names `n` through the wrapped, clamped reading too. -/
theorem node_start_of_landing (d : IVec ⟨1, ![Ne]⟩ 32) (n : Fin Nn) (e : Fin Ne)
    (he : e ∈ landing (scatIdx hcol d) n.val) : node (startIdx hcol hsc d) e = n := by
  have h1 : (d (ix1 e)).toInt = (n.val : ℤ) := by
    have := (Finset.mem_filter.mp he).2
    rwa [scatIdx_apply] at this
  have hsel : Scalar.select (IntOp.cmpi .slt (d (ix1 e)) 0#32) (IntOp.addi (d (ix1 e)) 200000#32) (d (ix1 e))
      = d (ix1 e) := by
    have hlt : (d (ix1 e)).slt 0#32 = false := by
      rw [BitVec.slt, h1]
      simp
    unfold Scalar.select IntOp.cmpi
    rw [hlt]
    rfl
  apply Fin.ext
  show min (startIdx hcol hsc d (ix2 e (0 : Fin 1))).toInt.toNat (Nn - 1) = n.val
  rw [startIdx_apply, hsel, h1, Int.toNat_natCast]
  have := n.isLt
  omega

/-- GATHER THEN SCATTER-ADD INTO ZEROS, at node `i` and column `k`: the table's rows at the nodes the start indices
    name, summed over the edges whose scatter index lands on `i`. -/
theorem aggregate_apply {D : ℕ}
    (wfs : ScatterDims.WF ⟨2, ![Nn, D]⟩ ⟨2, ![Ne, 1]⟩ ⟨2, ![Ne, D]⟩ [1] [0] [0] 1)
    (sd : ScatterDims ⟨2, ![Nn, D]⟩ ⟨2, ![Ne, 1]⟩ ⟨2, ![Ne, D]⟩) (hsd : sd = Cert.LibScatterAddRows.rowDims Nn D Ne wfs)
    (wfg : GatherDims.WF ⟨2, ![Nn, D]⟩ ⟨2, ![Ne, 1]⟩ ⟨2, ![Ne, D]⟩ [1] [0] [] [0] [] 1 ![1, D])
    (gd : GatherDims ⟨2, ![Nn, D]⟩ ⟨2, ![Ne, 1]⟩ ⟨2, ![Ne, D]⟩) (hgd : gd = Cert.LibGatherRows.rowDims2 Nn D Ne wfg)
    (hz : (⟨0, ![]⟩ : Shape).BroadcastsInDim ⟨2, ![Nn, D]⟩ (![] : Fin 0 → Fin 2))
    (T : (⟨2, ![Nn, D]⟩ : Shape).Idx → EReal) (dst src : IVec ⟨2, ![Ne, 1]⟩ 32) (i : Fin Nn) (k : Fin D) :
    Host.scatterAdd (φ := .f32) sd
        (broadcastInDim ⟨2, ![Nn, D]⟩ ![] hz (constant (F := Ideal) ⟨0, ![]⟩ .f32 0x00000000#32)) dst
        (Host.gather gd T src) (ix2 i k)
      = 0 + ∑ e ∈ landing dst i.val, T (ix2 (node src e) k) := by
  rw [Cert.LibScatterAddRows.scatterAdd_rows_apply wfs dst sd hsd]
  refine congrArg₂ (· + ·) Ideal.ofBits_zero_f32 (Finset.sum_congr rfl fun e _ => ?_)
  exact Cert.LibGatheredSums.gather_rows_at gd (wf := wfg) hgd Nn_pos T src e k

end Cert.GraphConv

end
-- ==== Proof.KernelHost.lean ====
/-
  The host operations between the idealized kernel program's regions, read at an index on the extended reals: the
  aggregate that feeds a bias region is, at node `i` and column `k`, the sum over the edges landing on `i` of the
  previous region's output at the edge's (wrapped, clamped) source node; the bias row is the bias vector.
-/
import proofs.«102351_j24489903522241_1_alg».proof.Proof.Gen.KernelIdeal.Frame
import proofs.«102351_j24489903522241_1_alg».proof.Proof.EdgeIndex
import proofs.«102351_j24489903522241_1_alg».proof.Proof.LibGatheredSums
import proofs.«102351_j24489903522241_1_alg».proof.Proof.LibScatterAddRows
import Idealize.ShloMosaic.Lib.StableHlo.Run
import Idealize.ShloMosaic.Lib.Pipeline.Value

set_option maxRecDepth 16384

noncomputable section

open scoped BigOperators

namespace Cert.KernelIdeal.HostValue

open Cert.KernelIdeal Cert.KernelIdeal.Gen Cert.KernelIdeal.Facts Cert.GraphConv
open Idealize.ShloMosaic Idealize.ShloMosaic.TcCoe Idealize.SL.Sem Idealize.ShloMosaic.ValueIdx
open Idealize.ShloMosaic.StableHlo
open Cert.LibScatterAddRows (landing)

variable (m : (ℓ : Loc nD τ sig) → Buf (Elt Ideal) ℓ) (ρ : Dev nD → PrngReg) (c : Dev nD)

/-- The aggregate of width 16 as the operations' term of the boundary's buffers. -/
theorem v28_eq : (W5 m ρ c (Proc.devRef .tc main_v28) : S200000x16.Idx → EReal)
    = Host.scatterAdd scatter_S200000x16_S6600000x1_S6600000x16_1_0_0_1
        (broadcastInDim S200000x16 ![] bcast_S_S200000x16 (constant (F := Ideal) S_ .f32 0x00000000#32))
        (scatIdx bcast_S6600000_S6600000x1_0 (W4 m ρ c (Proc.devRef .tc main_v6) : S6600000.Idx → BitVec 32))
        (Host.gather gather_S200000x16_S6600000x1_S6600000x16_1_0_n_n_0_1_116
          (W4 m ρ c (Proc.devRef .tc main_v18) : S200000x16.Idx → EReal)
          (startIdx bcast_S6600000_S6600000x1_0 bcast_S_S6600000
            (W4 m ρ c (Proc.devRef .tc main_v3) : S6600000.Idx → BitVec 32))) := by
  dsimp only [W5]
  after_results
  rfl

/-- Entry `(i, k)` of the aggregate: the previous region's rows at the source nodes, summed over the edges into `i`. -/
theorem v28_apply (A : S200000x16.Idx → EReal) (hA : W4 m ρ c (Proc.devRef .tc main_v18) = A)
    (s d : S6600000.Idx → BitVec 32) (hs : W4 m ρ c (Proc.devRef .tc main_v3) = s)
    (hd : W4 m ρ c (Proc.devRef .tc main_v6) = d) (i : Fin 200000) (k : Fin 16) :
    W5 m ρ c (Proc.devRef .tc main_v28) (ix2 i k)
      = (0 : EReal) + ∑ e ∈ landing (scatIdx bcast_S6600000_S6600000x1_0 d) i.val,
          A (ix2 (node (startIdx bcast_S6600000_S6600000x1_0 bcast_S_S6600000 s) e) k) := by
  subst hA hs hd
  rw [v28_eq]
  exact aggregate_apply (D := 16) scatter_S200000x16_S6600000x1_S6600000x16_1_0_0_1.wf
    scatter_S200000x16_S6600000x1_S6600000x16_1_0_0_1 rfl
    gather_S200000x16_S6600000x1_S6600000x16_1_0_n_n_0_1_116.wf
    gather_S200000x16_S6600000x1_S6600000x16_1_0_n_n_0_1_116 rfl bcast_S_S200000x16 _ _ _ i k

theorem v29_eq : (W5 m ρ c (Proc.devRef .tc main_v29) : S1x16.Idx → EReal)
    = shapeCast S1x16 (W4 m ρ c (Proc.devRef .tc main_arg3) : S16.Idx → EReal) shapeCasts_S16_S1x16 := by
  dsimp only [W5]
  after_results
  rfl

/-- The bias row of width 16 at column `k` is the bias vector at `k`. -/
theorem v29_apply (b : S16.Idx → EReal) (hb : W4 m ρ c (Proc.devRef .tc main_arg3) = b) (k : Fin 16) :
    W5 m ρ c (Proc.devRef .tc main_v29) (ix2 (0 : Fin 1) k) = b (ix1 k) := by
  subst hb
  rw [v29_eq]
  exact shapeCast_apply _ shapeCasts_S16_S1x16 (ix2 (0 : Fin 1) k) (ix1 k)
    (by rewrite [Shape.rowMajor_val_two, Shape.rowMajor_val_one]; show k.val = 0 * 16 + k.val; omega)

/-- The aggregate of width 2 as the operations' term of the boundary's buffers. -/
theorem v41_eq : (W8 m ρ c (Proc.devRef .tc main_v41) : S200000x2.Idx → EReal)
    = Host.scatterAdd scatter_S200000x2_S6600000x1_S6600000x2_1_0_0_1
        (broadcastInDim S200000x2 ![] bcast_S_S200000x2 (constant (F := Ideal) S_ .f32 0x00000000#32))
        (scatIdx bcast_S6600000_S6600000x1_0 (W7 m ρ c (Proc.devRef .tc main_v6) : S6600000.Idx → BitVec 32))
        (Host.gather gather_S200000x2_S6600000x1_S6600000x2_1_0_n_n_0_1_12
          (W7 m ρ c (Proc.devRef .tc main_v31) : S200000x2.Idx → EReal)
          (startIdx bcast_S6600000_S6600000x1_0 bcast_S_S6600000
            (W7 m ρ c (Proc.devRef .tc main_v3) : S6600000.Idx → BitVec 32))) := by
  dsimp only [W8]
  after_results
  rfl

theorem v41_apply (A : S200000x2.Idx → EReal) (hA : W7 m ρ c (Proc.devRef .tc main_v31) = A)
    (s d : S6600000.Idx → BitVec 32) (hs : W7 m ρ c (Proc.devRef .tc main_v3) = s)
    (hd : W7 m ρ c (Proc.devRef .tc main_v6) = d) (i : Fin 200000) (k : Fin 2) :
    W8 m ρ c (Proc.devRef .tc main_v41) (ix2 i k)
      = (0 : EReal) + ∑ e ∈ landing (scatIdx bcast_S6600000_S6600000x1_0 d) i.val,
          A (ix2 (node (startIdx bcast_S6600000_S6600000x1_0 bcast_S_S6600000 s) e) k) := by
  subst hA hs hd
  rw [v41_eq]
  exact aggregate_apply (D := 2) scatter_S200000x2_S6600000x1_S6600000x2_1_0_0_1.wf
    scatter_S200000x2_S6600000x1_S6600000x2_1_0_0_1 rfl
    gather_S200000x2_S6600000x1_S6600000x2_1_0_n_n_0_1_12.wf
    gather_S200000x2_S6600000x1_S6600000x2_1_0_n_n_0_1_12 rfl bcast_S_S200000x2 _ _ _ i k

theorem v42_eq : (W8 m ρ c (Proc.devRef .tc main_v42) : S1x2.Idx → EReal)
    = shapeCast S1x2 (W7 m ρ c (Proc.devRef .tc main_arg5) : S2.Idx → EReal) shapeCasts_S2_S1x2 := by
  dsimp only [W8]
  after_results
  rfl

/-- The bias row of width 2 at column `k` is the bias vector at `k`. -/
theorem v42_apply (b : S2.Idx → EReal) (hb : W7 m ρ c (Proc.devRef .tc main_arg5) = b) (k : Fin 2) :
    W8 m ρ c (Proc.devRef .tc main_v42) (ix2 (0 : Fin 1) k) = b (ix1 k) := by
  subst hb
  rw [v42_eq]
  exact shapeCast_apply _ shapeCasts_S2_S1x2 (ix2 (0 : Fin 1) k) (ix1 k)
    (by rewrite [Shape.rowMajor_val_two, Shape.rowMajor_val_one]; show k.val = 0 * 2 + k.val; omega)

end Cert.KernelIdeal.HostValue

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.ArrayEntries.lean ====
/-
  Arrays of extended reals over a two-axis shape, given entry by entry.

  An index of the shape `[a, b]` is a pair of coordinates `(n, f)`; an array whose entry at `(n, f)` is `g n f` is the
  function `i ↦ g (i 0) (i 1)`. A block that is loaded or stored whole is accessed at offsets that are all zero.
-/
import Idealize.ShloMosaic.Lib.ValueIdx

noncomputable section

namespace Cert.KernelIdeal.Blocks

open Idealize.ShloMosaic Idealize.ShloMosaic.ValueIdx

/-- The offsets of a whole-block access are all zero. -/
theorem zero_offsets : (![0, 0] : Fin 2 → Nat) = fun _ => 0 := funext fun a => by fin_cases a <;> rfl

/-- The array over `[a, b]` whose entry at `(n, f)` is `g n f`. -/
def ofEntries {a b : ℕ} (g : Fin a → Fin b → EReal) : (⟨2, ![a, b]⟩ : Shape).Idx → EReal := fun i => g (i 0) (i 1)

/-- Its entry at `(n, f)`. -/
theorem ofEntries_apply {a b : ℕ} (g : Fin a → Fin b → EReal) (n : Fin a) (f : Fin b) : ofEntries g (ix2 n f) = g n f := rfl

end Cert.KernelIdeal.Blocks

end
-- ==== Proof.RegionScaleProj.lean ====
/-
  The two projection regions of the kernel: each takes a row-blocked feature array `h` of `200000` rows, the per-row
  scale column `d` and a weight matrix `w`, and leaves the array whose entry at `(n, f)` is
  `∑ k, (h (n, k) · d (n, 0)) · w (k, f)`.

  Per block of `8000` rows the body multiplies each row by its scale, and multiplies the result by the weights into a
  zero accumulator (the narrowing of the two factors is the identity on the extended reals); block `t` of each
  row-blocked array is rows `8000 t … 8000 t + 7999`, the weights have one block, and the `25` result blocks tile the
  result: row `n` lies in block `n / 8000`.
-/
import proofs.«102351_j24489903522241_1_alg».proof.Proof.Gen.KernelIdeal.Frame
import Idealize.ShloMosaic.Lib.Pipeline.Value
import Idealize.ShloMosaic.Lib.ValueIdx
import Idealize.ShloMosaic.PureOps.Ideal.Laws
import proofs.«102351_j24489903522241_1_alg».proof.Proof.LibPlainMatmul
import proofs.«102351_j24489903522241_1_alg».proof.Proof.LibColumn
import proofs.«102351_j24489903522241_1_alg».proof.Proof.ArrayEntries

noncomputable section

open scoped BigOperators

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

/-! ## The projection of scaled rows, and the body's payload at an entry -/

/-- Rows of `h` scaled by the column `d`, then projected by `w`. -/
def scaleProj {K D : ℕ} (h : (⟨2, ![200000, K]⟩ : Shape).Idx → EReal) (d : (⟨2, ![200000, 1]⟩ : Shape).Idx → EReal)
    (w : (⟨2, ![K, D]⟩ : Shape).Idx → EReal) : (⟨2, ![200000, D]⟩ : Shape).Idx → EReal :=
  ofEntries fun n f => ∑ k : Fin K, (h (ix2 n k) * d (ix2 n (0 : Fin 1))) * w (ix2 k f)

/-- Its entry at `(n, f)`. -/
theorem scaleProj_apply {K D : ℕ} (h : (⟨2, ![200000, K]⟩ : Shape).Idx → EReal)
    (d : (⟨2, ![200000, 1]⟩ : Shape).Idx → EReal) (w : (⟨2, ![K, D]⟩ : Shape).Idx → EReal) (n : Fin 200000) (f : Fin D) :
    scaleProj h d w (ix2 n f) = ∑ k : Fin K, (h (ix2 n k) * d (ix2 n (0 : Fin 1))) * w (ix2 k f) := rfl

/-- The first projection's body on a block: entry `(p, q)` is the scaled row `p` against column `q` of the weights. -/
theorem scaleProj28_block_apply (x0 : Vec Ideal S8000x28 .f32) (x1 : Vec Ideal S8000x1 .f32) (x6 : Vec Ideal S28x16 .f32)
    (p : Fin 8000) (q : Fin 16) :
    k0_pay1 x0 x1 x6 (ix2 p q) = ∑ k : Fin 28, (x0 (ix2 p k) * x1 (ix2 p (0 : Fin 1))) * x6 (ix2 k q) := by
  unfold k0_pay1
  refine (Cert.LibPlainMatmul.matmul_plain_zero_apply _ rfl none _ _ p q).trans ?_
  refine Finset.sum_congr rfl fun k _ => ?_
  show (x0 (ix2 p k) * broadcastTo S8000x28 (shapeCast S8000x1 x1 shapeCasts_S8000x1_S8000x1)
    broadcasts_S8000x1_S8000x28 (ix2 p k)) * x6 (ix2 k q) = _
  rw [Cert.LibColumn.broadcastTo_a1_ab_apply, shapeCast_self]

/-- The second projection's body on a block, likewise. -/
theorem scaleProj16_block_apply (x0 : Vec Ideal S8000x16 .f32) (x2 : Vec Ideal S8000x1 .f32) (x7 : Vec Ideal S16x2 .f32)
    (p : Fin 8000) (q : Fin 2) :
    k2_pay1 x0 x2 x7 (ix2 p q) = ∑ k : Fin 16, (x0 (ix2 p k) * x2 (ix2 p (0 : Fin 1))) * x7 (ix2 k q) := by
  unfold k2_pay1
  refine (Cert.LibPlainMatmul.matmul_plain_zero_apply _ rfl none _ _ p q).trans ?_
  refine Finset.sum_congr rfl fun k _ => ?_
  show (shapeCast S8000x16 x0 shapeCasts_S8000x16_S8000x16 (ix2 p k)
    * broadcastTo S8000x16 (shapeCast S8000x1 x2 shapeCasts_S8000x1_S8000x1) broadcasts_S8000x1_S8000x16 (ix2 p k))
      * x7 (ix2 k q) = _
  rw [Cert.LibColumn.broadcastTo_a1_ab_apply, shapeCast_self, shapeCast_self]

/-! ## The first projection: features `[200000, 28]`, weights `[28, 16]` -/

section Region0

variable (V : (c : Dev nD) → (b : Ref sig .tc) → Buf (Elt Ideal) ((c : Thread nD τ).loc b))

/-- Where grid point `t` puts each window's block: row block `t` of the three row-blocked arrays, the one block of the
    weights. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the features' block at point `t` is row `8000 t + p` of the features. -/
theorem rows0_apply (c : Dev nD) (t : Fin cfg0.N) (p : Fin 8000) (k : Fin 28) (n : Fin 200000)
    (hn : n.val = t.val * 8000 + p.val) :
    (iblk0 V c 0 t : Vec Ideal S8000x28 .f32) (ix2 p k) = (V c main_arg0 : S200000x28.Idx → EReal) (ix2 n k) := by
  obtain ⟨e0, e1, -⟩ := block_indices0 t
  unfold iblk0
  show (V c main_arg0 : S200000x28.Idx → EReal) (((cfg0.win 0).blk t).view.emb (ix2 p k)) = _
  refine congrArg (V c main_arg0 : S200000x28.Idx → EReal) ?_
  funext a; apply Fin.ext
  match a with
  | ⟨0, _⟩ => show win0_0.index t (0 : Fin 2) * 8000 + 1 * p.val = n.val; omega
  | ⟨1, _⟩ => show win0_0.index t (1 : Fin 2) * 28 + 1 * k.val = k.val; omega

/-- The weights' one block is the weights. -/
theorem weights0_apply (c : Dev nD) (t : Fin cfg0.N) (k : Fin 28) (q : Fin 16) :
    (iblk0 V c 1 t : Vec Ideal S28x16 .f32) (ix2 k q) = (V c main_arg2 : S28x16.Idx → EReal) (ix2 k q) := by
  obtain ⟨-, -, e0, e1, -⟩ := block_indices0 t
  unfold iblk0
  show (V c main_arg2 : S28x16.Idx → EReal) (((cfg0.win 1).blk t).view.emb (ix2 k q)) = _
  refine congrArg (V c main_arg2 : S28x16.Idx → EReal) ?_
  funext a; apply Fin.ext
  match a with
  | ⟨0, _⟩ => show win0_1.index t (0 : Fin 2) * 28 + 1 * k.val = k.val; omega
  | ⟨1, _⟩ => show win0_1.index t (1 : Fin 2) * 16 + 1 * q.val = q.val; omega

/-- Row `p` of the scale column's block at point `t` is row `8000 t + p` of the column. -/
theorem scale0_apply (c : Dev nD) (t : Fin cfg0.N) (p : Fin 8000) (n : Fin 200000)
    (hn : n.val = t.val * 8000 + p.val) :
    (iblk0 V c 2 t : Vec Ideal S8000x1 .f32) (ix2 p (0 : Fin 1))
      = (V c main_v17 : S200000x1.Idx → EReal) (ix2 n (0 : Fin 1)) := by
  obtain ⟨-, -, -, -, e0, e1, -⟩ := block_indices0 t
  unfold iblk0
  show (V c main_v17 : S200000x1.Idx → EReal) (((cfg0.win 2).blk t).view.emb (ix2 p (0 : Fin 1))) = _
  refine congrArg (V c main_v17 : S200000x1.Idx → EReal) ?_
  funext a; apply Fin.ext
  match a with
  | ⟨0, _⟩ => show win0_2.index t (0 : Fin 2) * 8000 + 1 * p.val = n.val; omega
  | ⟨1, _⟩ => show win0_2.index t (1 : Fin 2) * 1 + 1 * 0 = 0; omega

/-- Entry `(p, q)` of the result's block at point `t` sits at `(8000 t + p, q)` of the result. -/
theorem result0_emb (t : Fin cfg0.N) (p : Fin 8000) (q : Fin 16) (n : Fin 200000)
    (hn : n.val = t.val * 8000 + p.val) :
    (((cfg0.win 3).blk t).view.emb (ix2 p q) : S200000x16.Idx) = ix2 n q := by
  obtain ⟨-, -, -, -, -, -, e0, e1⟩ := block_indices0 t
  funext a; apply Fin.ext
  match a with
  | ⟨0, _⟩ => show win0_3.index t (0 : Fin 2) * 8000 + 1 * p.val = n.val; omega
  | ⟨1, _⟩ => show win0_3.index t (1 : Fin 2) * 16 + 1 * q.val = q.val; omega

/-- What point `t` writes back is block `t` of the scaled features' projection, of the arrays as the region finds them. -/
theorem flushed0_eq (c : Dev nD) (t : Fin cfg0.N) :
    (dat0 V c).flushed 3 t
      = ((cfg0.win 3).blk t).view.read (Elt Ideal) (scaleProj (K := 28) (D := 16) (V c main_arg0) (V c main_v17) (V c main_arg2)) := by
  show (cfg0.win 3).cut (grid0.coords t) ((dat0 V c).after 3 t) = _
  rw [after0_3]
  unfold out0_3
  rw [View.canon_unit_zero zero_offsets]
  simp only [View.ld_unit_zero (S := S8000x28) zero_offsets, View.ld_unit_zero (S := S8000x1) zero_offsets,
    View.ld_unit_zero (S := S28x16) zero_offsets]
  funext j
  obtain ⟨p, q, rfl⟩ : ∃ (p : Fin 8000) (q : Fin 16), j = ix2 p q := ⟨j 0, j 1, eq_ix2 j⟩
  have ht : t.val < 25 := lt_of_lt_of_eq t.isLt N_0
  have hp : p.val < 8000 := p.isLt
  show k0_pay1 (iblk0 V c 0 t) (iblk0 V c 2 t) (iblk0 V c 1 t) (ix2 p q)
    = scaleProj (K := 28) (D := 16) (V c main_arg0) (V c main_v17) (V c main_arg2) (((cfg0.win 3).blk t).view.emb (ix2 p q))
  rw [result0_emb t p q ⟨t.val * 8000 + p.val, by omega⟩ rfl, scaleProj_apply]
  refine (scaleProj28_block_apply (iblk0 V c 0 t) (iblk0 V c 2 t) (iblk0 V c 1 t) p q).trans ?_
  refine Finset.sum_congr rfl fun k _ => ?_
  rw [rows0_apply V c t p k ⟨t.val * 8000 + p.val, by omega⟩ rfl,
    scale0_apply V c t p ⟨t.val * 8000 + p.val, by omega⟩ rfl, weights0_apply V c t k q]

/-- An index of the result lies in point `t`'s block iff each coordinate lies in the block's range on its axis. -/
theorem mem_block0 (t : Fin cfg0.N) (i : S200000x16.Idx) :
    i ∈ ((cfg0.win 3).blk t).view.set ↔ ∀ a : Fin 2, win0_3.index t a * S8000x16.size a ≤ (i a).val
      ∧ (i a).val < win0_3.index t a * S8000x16.size a + S8000x16.size a := by
  show i ∈ ((View.whole main_v18).slice (win0_3.rect t)).set ↔ _
  rw [View.set_slice_whole, Rect.mem_set_unit]
  exact Iff.rfl

/-- Every index of the result is in some point's block: row `n` is in block `n / 8000`. -/
theorem covered0 (i : S200000x16.Idx) :
    ∃ t : Fin cfg0.N, (cfg0.win 3).flush t = true ∧ i ∈ ((cfg0.win 3).blk t).view.set := by
  have hi0 : (i 0).val < 200000 := (i 0).isLt
  have hi1 : (i 1).val < 16 := (i 1).isLt
  have hN : cfg0.N = 25 := N_0
  refine ⟨⟨(i 0).val / 8000, by rw [hN]; omega⟩, flush0_3 _, ?_⟩
  rw [mem_block0]
  obtain ⟨-, -, -, -, -, -, e0, e1⟩ := block_indices0 ⟨(i 0).val / 8000, by rw [hN]; omega⟩
  intro a
  match a with
  | ⟨0, _⟩ =>
    show win0_3.index _ (0 : Fin 2) * 8000 ≤ (i 0).val ∧ (i 0).val < win0_3.index _ (0 : Fin 2) * 8000 + 8000
    rw [e0]
    show (i 0).val / 8000 * 8000 ≤ (i 0).val ∧ (i 0).val < (i 0).val / 8000 * 8000 + 8000
    omega
  | ⟨1, _⟩ =>
    show win0_3.index _ (1 : Fin 2) * 16 ≤ (i 1).val ∧ (i 1).val < win0_3.index _ (1 : Fin 2) * 16 + 16
    rw [e1]; omega

/-- The result array after the region: the scaled features' projection. -/
theorem array0 (c : Dev nD) :
    (dat0 V c).arrAt 3 cfg0.N = scaleProj (K := 28) (D := 16) (V c main_arg0) (V c main_v17) (V c main_arg2) :=
  (dat0 V c).arrAt_eq_of_cover 3 _ (fun t _ => flushed0_eq V c t) covered0

/-- The result array after the region, entry by entry, with the region's three input arrays named. -/
theorem final0 (c : Dev nD) (h : S200000x28.Idx → EReal) (d : S200000x1.Idx → EReal) (w : S28x16.Idx → EReal)
    (eh : V c main_arg0 = h) (ed : V c main_v17 = d) (ew : V c main_arg2 = w) (n : Fin 200000) (f : Fin 16) :
    ((dat0 V c).arrAt 3 cfg0.N : S200000x16.Idx → EReal) (ix2 n f)
      = ∑ k : Fin 28, (h (ix2 n k) * d (ix2 n (0 : Fin 1))) * w (ix2 k f) := by
  subst eh ed ew
  rw [array0 V c]
  rfl

end Region0

/-! ## The second projection: features `[200000, 16]`, weights `[16, 2]` -/

section Region2

variable (V : (c : Dev nD) → (b : Ref sig .tc) → Buf (Elt Ideal) ((c : Thread nD τ).loc b))

/-- Where grid point `t` puts each window's block: row block `t` of the three row-blocked arrays, the one block of the
    weights. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of the features' block at point `t` is row `8000 t + p` of the features. -/
theorem rows2_apply (c : Dev nD) (t : Fin cfg2.N) (p : Fin 8000) (k : Fin 16) (n : Fin 200000)
    (hn : n.val = t.val * 8000 + p.val) :
    (iblk2 V c 0 t : Vec Ideal S8000x16 .f32) (ix2 p k) = (V c main_v30 : S200000x16.Idx → EReal) (ix2 n k) := by
  obtain ⟨e0, e1, -⟩ := block_indices2 t
  unfold iblk2
  show (V c main_v30 : S200000x16.Idx → EReal) (((cfg2.win 0).blk t).view.emb (ix2 p k)) = _
  refine congrArg (V c main_v30 : S200000x16.Idx → EReal) ?_
  funext a; apply Fin.ext
  match a with
  | ⟨0, _⟩ => show win2_0.index t (0 : Fin 2) * 8000 + 1 * p.val = n.val; omega
  | ⟨1, _⟩ => show win2_0.index t (1 : Fin 2) * 16 + 1 * k.val = k.val; omega

/-- The weights' one block is the weights. -/
theorem weights2_apply (c : Dev nD) (t : Fin cfg2.N) (k : Fin 16) (q : Fin 2) :
    (iblk2 V c 1 t : Vec Ideal S16x2 .f32) (ix2 k q) = (V c main_arg4 : S16x2.Idx → EReal) (ix2 k q) := by
  obtain ⟨-, -, e0, e1, -⟩ := block_indices2 t
  unfold iblk2
  show (V c main_arg4 : S16x2.Idx → EReal) (((cfg2.win 1).blk t).view.emb (ix2 k q)) = _
  refine congrArg (V c main_arg4 : S16x2.Idx → EReal) ?_
  funext a; apply Fin.ext
  match a with
  | ⟨0, _⟩ => show win2_1.index t (0 : Fin 2) * 16 + 1 * k.val = k.val; omega
  | ⟨1, _⟩ => show win2_1.index t (1 : Fin 2) * 2 + 1 * q.val = q.val; omega

/-- Row `p` of the scale column's block at point `t` is row `8000 t + p` of the column. -/
theorem scale2_apply (c : Dev nD) (t : Fin cfg2.N) (p : Fin 8000) (n : Fin 200000)
    (hn : n.val = t.val * 8000 + p.val) :
    (iblk2 V c 2 t : Vec Ideal S8000x1 .f32) (ix2 p (0 : Fin 1))
      = (V c main_v17 : S200000x1.Idx → EReal) (ix2 n (0 : Fin 1)) := by
  obtain ⟨-, -, -, -, e0, e1, -⟩ := block_indices2 t
  unfold iblk2
  show (V c main_v17 : S200000x1.Idx → EReal) (((cfg2.win 2).blk t).view.emb (ix2 p (0 : Fin 1))) = _
  refine congrArg (V c main_v17 : S200000x1.Idx → EReal) ?_
  funext a; apply Fin.ext
  match a with
  | ⟨0, _⟩ => show win2_2.index t (0 : Fin 2) * 8000 + 1 * p.val = n.val; omega
  | ⟨1, _⟩ => show win2_2.index t (1 : Fin 2) * 1 + 1 * 0 = 0; omega

/-- Entry `(p, q)` of the result's block at point `t` sits at `(8000 t + p, q)` of the result. -/
theorem result2_emb (t : Fin cfg2.N) (p : Fin 8000) (q : Fin 2) (n : Fin 200000)
    (hn : n.val = t.val * 8000 + p.val) :
    (((cfg2.win 3).blk t).view.emb (ix2 p q) : S200000x2.Idx) = ix2 n q := by
  obtain ⟨-, -, -, -, -, -, e0, e1⟩ := block_indices2 t
  funext a; apply Fin.ext
  match a with
  | ⟨0, _⟩ => show win2_3.index t (0 : Fin 2) * 8000 + 1 * p.val = n.val; omega
  | ⟨1, _⟩ => show win2_3.index t (1 : Fin 2) * 2 + 1 * q.val = q.val; omega

/-- What point `t` writes back is block `t` of the scaled features' projection, of the arrays as the region finds them. -/
theorem flushed2_eq (c : Dev nD) (t : Fin cfg2.N) :
    (dat2 V c).flushed 3 t
      = ((cfg2.win 3).blk t).view.read (Elt Ideal) (scaleProj (K := 16) (D := 2) (V c main_v30) (V c main_v17) (V c main_arg4)) := by
  show (cfg2.win 3).cut (grid2.coords t) ((dat2 V c).after 3 t) = _
  rw [after2_3]
  unfold out2_3
  rw [View.canon_unit_zero zero_offsets]
  simp only [View.ld_unit_zero (S := S8000x16) zero_offsets, View.ld_unit_zero (S := S8000x1) zero_offsets,
    View.ld_unit_zero (S := S16x2) zero_offsets]
  funext j
  obtain ⟨p, q, rfl⟩ : ∃ (p : Fin 8000) (q : Fin 2), j = ix2 p q := ⟨j 0, j 1, eq_ix2 j⟩
  have ht : t.val < 25 := lt_of_lt_of_eq t.isLt N_2
  have hp : p.val < 8000 := p.isLt
  show k2_pay1 (iblk2 V c 0 t) (iblk2 V c 2 t) (iblk2 V c 1 t) (ix2 p q)
    = scaleProj (K := 16) (D := 2) (V c main_v30) (V c main_v17) (V c main_arg4) (((cfg2.win 3).blk t).view.emb (ix2 p q))
  rw [result2_emb t p q ⟨t.val * 8000 + p.val, by omega⟩ rfl, scaleProj_apply]
  refine (scaleProj16_block_apply (iblk2 V c 0 t) (iblk2 V c 2 t) (iblk2 V c 1 t) p q).trans ?_
  refine Finset.sum_congr rfl fun k _ => ?_
  rw [rows2_apply V c t p k ⟨t.val * 8000 + p.val, by omega⟩ rfl,
    scale2_apply V c t p ⟨t.val * 8000 + p.val, by omega⟩ rfl, weights2_apply V c t k q]

/-- An index of the result lies in point `t`'s block iff each coordinate lies in the block's range on its axis. -/
theorem mem_block2 (t : Fin cfg2.N) (i : S200000x2.Idx) :
    i ∈ ((cfg2.win 3).blk t).view.set ↔ ∀ a : Fin 2, win2_3.index t a * S8000x2.size a ≤ (i a).val
      ∧ (i a).val < win2_3.index t a * S8000x2.size a + S8000x2.size a := by
  show i ∈ ((View.whole main_v31).slice (win2_3.rect t)).set ↔ _
  rw [View.set_slice_whole, Rect.mem_set_unit]
  exact Iff.rfl

/-- Every index of the result is in some point's block: row `n` is in block `n / 8000`. -/
theorem covered2 (i : S200000x2.Idx) :
    ∃ t : Fin cfg2.N, (cfg2.win 3).flush t = true ∧ i ∈ ((cfg2.win 3).blk t).view.set := by
  have hi0 : (i 0).val < 200000 := (i 0).isLt
  have hi1 : (i 1).val < 2 := (i 1).isLt
  have hN : cfg2.N = 25 := N_2
  refine ⟨⟨(i 0).val / 8000, by rw [hN]; omega⟩, flush2_3 _, ?_⟩
  rw [mem_block2]
  obtain ⟨-, -, -, -, -, -, e0, e1⟩ := block_indices2 ⟨(i 0).val / 8000, by rw [hN]; omega⟩
  intro a
  match a with
  | ⟨0, _⟩ =>
    show win2_3.index _ (0 : Fin 2) * 8000 ≤ (i 0).val ∧ (i 0).val < win2_3.index _ (0 : Fin 2) * 8000 + 8000
    rw [e0]
    show (i 0).val / 8000 * 8000 ≤ (i 0).val ∧ (i 0).val < (i 0).val / 8000 * 8000 + 8000
    omega
  | ⟨1, _⟩ =>
    show win2_3.index _ (1 : Fin 2) * 2 ≤ (i 1).val ∧ (i 1).val < win2_3.index _ (1 : Fin 2) * 2 + 2
    rw [e1]; omega

/-- The result array after the region: the scaled features' projection. -/
theorem array2 (c : Dev nD) :
    (dat2 V c).arrAt 3 cfg2.N = scaleProj (K := 16) (D := 2) (V c main_v30) (V c main_v17) (V c main_arg4) :=
  (dat2 V c).arrAt_eq_of_cover 3 _ (fun t _ => flushed2_eq V c t) covered2

/-- The result array after the region, entry by entry, with the region's three input arrays named. -/
theorem final2 (c : Dev nD) (h : S200000x16.Idx → EReal) (d : S200000x1.Idx → EReal) (w : S16x2.Idx → EReal)
    (eh : V c main_v30 = h) (ed : V c main_v17 = d) (ew : V c main_arg4 = w) (n : Fin 200000) (f : Fin 2) :
    ((dat2 V c).arrAt 3 cfg2.N : S200000x2.Idx → EReal) (ix2 n f)
      = ∑ k : Fin 16, (h (ix2 n k) * d (ix2 n (0 : Fin 1))) * w (ix2 k f) := by
  subst eh ed ew
  rw [array2 V c]
  rfl

end Region2

end Cert.KernelIdeal.Blocks

end
-- ==== Proof.RowLogSoftmax.lean ====
/-
  The logarithm of a softmax along a row of two entries, on the extended reals: each entry less the row's largest entry,
  less the logarithm of the sum of the exponentials of those differences. The largest entry is taken as a fold of `max`
  that starts from the value of the word both programs start their running maximum from.
-/
import Idealize.ShloMosaic.PureOps.Ideal.Laws

noncomputable section

open scoped BigOperators

namespace Cert.GraphConv

open Idealize.ShloMosaic

/-- The largest of a row's two entries, folded from the starting word's value. -/
def rowMax (v : Fin 2 → EReal) : EReal :=
  (Finset.univ : Finset (Fin 2)).fold max (Ideal.ofBits .f32 0xFF800000#32) v

/-- Entry `f` of the log-softmax of the row `v`. -/
def lsm (v : Fin 2 → EReal) (f : Fin 2) : EReal :=
  (v f - rowMax v) - Ideal.log (∑ k : Fin 2, Ideal.exp (v k - rowMax v))

end Cert.GraphConv

end
-- ==== Proof.RegionBias.lean ====
/-
  The two bias regions of the kernel: each takes a row-blocked array `x` of `200000` rows, the per-row scale column
  `d` and a bias row `b`, forms `x (n, f) · d (n, 0) + b (0, f)`, and leaves its positive part (the first) or the
  logarithm of its softmax along each row of two entries (the second).

  Per block of `8000` rows the body broadcasts the scale along the columns and the bias along the rows. The row's
  largest entry is a fold of `max` over its two columns from the starting word's value, the sum of exponentials a sum over
  the two columns; both are taken over the block's second axis and re-laid as a column. Block `t` of each row-blocked
  array is rows `8000 t … 8000 t + 7999`, the bias has one block, and the `25` result blocks tile the result: row `n`
  lies in block `n / 8000`.
-/
import proofs.«102351_j24489903522241_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«102351_j24489903522241_1_alg».proof.Proof.LibColumn
import proofs.«102351_j24489903522241_1_alg».proof.Proof.RowLogSoftmax
import proofs.«102351_j24489903522241_1_alg».proof.Proof.ArrayEntries

noncomputable section

open scoped BigOperators

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

/-! ## The two results entry by entry, and the bodies' payloads at an entry -/

/-- The positive part of the scaled rows plus the bias. -/
def biasRelu {D : ℕ} (x : (⟨2, ![200000, D]⟩ : Shape).Idx → EReal) (d : (⟨2, ![200000, 1]⟩ : Shape).Idx → EReal)
    (b : (⟨2, ![1, D]⟩ : Shape).Idx → EReal) : (⟨2, ![200000, D]⟩ : Shape).Idx → EReal :=
  ofEntries fun n f => max (x (ix2 n f) * d (ix2 n (0 : Fin 1)) + b (ix2 (0 : Fin 1) f)) 0

/-- Its entry at `(n, f)`. -/
theorem biasRelu_apply {D : ℕ} (x : (⟨2, ![200000, D]⟩ : Shape).Idx → EReal) (d : (⟨2, ![200000, 1]⟩ : Shape).Idx → EReal)
    (b : (⟨2, ![1, D]⟩ : Shape).Idx → EReal) (n : Fin 200000) (f : Fin D) :
    biasRelu x d b (ix2 n f) = max (x (ix2 n f) * d (ix2 n (0 : Fin 1)) + b (ix2 (0 : Fin 1) f)) 0 := rfl

/-- The row-wise log-softmax of the scaled rows plus the bias. -/
def biasLsm (x : (⟨2, ![200000, 2]⟩ : Shape).Idx → EReal) (d : (⟨2, ![200000, 1]⟩ : Shape).Idx → EReal)
    (b : (⟨2, ![1, 2]⟩ : Shape).Idx → EReal) : (⟨2, ![200000, 2]⟩ : Shape).Idx → EReal :=
  ofEntries fun n f => Cert.GraphConv.lsm (fun f' => x (ix2 n f') * d (ix2 n (0 : Fin 1)) + b (ix2 (0 : Fin 1) f')) f

/-- Its entry at `(n, f)`. -/
theorem biasLsm_apply (x : (⟨2, ![200000, 2]⟩ : Shape).Idx → EReal) (d : (⟨2, ![200000, 1]⟩ : Shape).Idx → EReal)
    (b : (⟨2, ![1, 2]⟩ : Shape).Idx → EReal) (n : Fin 200000) (f : Fin 2) :
    biasLsm x d b (ix2 n f)
      = Cert.GraphConv.lsm (fun f' => x (ix2 n f') * d (ix2 n (0 : Fin 1)) + b (ix2 (0 : Fin 1) f')) f := rfl

/-- The first bias region's body on a block: entry `(p, q)`. -/
theorem biasRelu_block_apply (x0 : Vec Ideal S8000x16 .f32) (x2 : Vec Ideal S8000x1 .f32) (x6 : Vec Ideal S1x16 .f32)
    (p : Fin 8000) (q : Fin 16) :
    k1_pay1 x0 x2 x6 (ix2 p q) = max (x0 (ix2 p q) * x2 (ix2 p (0 : Fin 1)) + x6 (ix2 (0 : Fin 1) q)) 0 := by
  unfold k1_pay1
  show max (shapeCast S8000x16 x0 shapeCasts_S8000x16_S8000x16 (ix2 p q)
      * broadcastTo S8000x16 (shapeCast S8000x1 x2 shapeCasts_S8000x1_S8000x1) broadcasts_S8000x1_S8000x16 (ix2 p q)
      + broadcastTo S8000x16 (shapeCast S1x16 x6 shapeCasts_S1x16_S1x16) broadcasts_S1x16_S8000x16 (ix2 p q))
    (Ideal.ofBits .f32 0x00000000#32) = _
  rw [Cert.LibColumn.broadcastTo_a1_ab_apply, broadcastTo_1b_ab_apply, shapeCast_self, shapeCast_self, shapeCast_self,
    Ideal.ofBits_zero_f32]

/-- The scaled rows plus the bias, on a block of two columns. -/
def biased2 (x0 : Vec Ideal S8000x2 .f32) (x2 : Vec Ideal S8000x1 .f32) (x6 : Vec Ideal S1x2 .f32) : FVec Ideal S8000x2 .f32 :=
  addf (mulf (shapeCast S8000x2 x0 shapeCasts_S8000x2_S8000x2)
      (broadcastTo S8000x2 (shapeCast S8000x1 x2 shapeCasts_S8000x1_S8000x1) broadcasts_S8000x1_S8000x2))
    (broadcastTo S8000x2 (shapeCast S1x2 x6 shapeCasts_S1x2_S1x2) broadcasts_S1x2_S8000x2)

theorem biased2_apply (x0 : Vec Ideal S8000x2 .f32) (x2 : Vec Ideal S8000x1 .f32) (x6 : Vec Ideal S1x2 .f32)
    (p : Fin 8000) (q : Fin 2) :
    biased2 x0 x2 x6 (ix2 p q) = x0 (ix2 p q) * x2 (ix2 p (0 : Fin 1)) + x6 (ix2 (0 : Fin 1) q) := by
  unfold biased2
  rw [addf_apply, mulf_apply, Cert.LibColumn.broadcastTo_a1_ab_apply, broadcastTo_1b_ab_apply, shapeCast_self,
    shapeCast_self, shapeCast_self]

/-- A block of two columns with each row's largest entry taken off. -/
def centred2 (y : FVec Ideal S8000x2 .f32) : FVec Ideal S8000x2 .f32 :=
  subf y (broadcastTo S8000x2 (shapeCast S8000x1
    (multiReduction (F := Ideal) .maximumf [1] S8000 y 0xFF800000#32 reduces_S8000x2_S8000 (.inl rfl) rfl)
    shapeCasts_S8000_S8000x1) broadcasts_S8000x1_S8000x2)

theorem centred2_apply (y : FVec Ideal S8000x2 .f32) (p : Fin 8000) (q : Fin 2) :
    centred2 y (ix2 p q) = y (ix2 p q) - Cert.GraphConv.rowMax (fun f => y (ix2 p f)) := by
  unfold centred2
  rw [subf_apply, Cert.LibColumn.broadcastTo_a1_ab_apply, Cert.LibColumn.shapeCast_a_a1_apply]
  refine congrArg (y (ix2 p q) - ·) ?_
  refine (Ideal.multiReduction_maximumf_single y _ reduces_S8000x2_S8000 (.inl rfl) rfl (ix1 p)).trans ?_
  unfold Cert.GraphConv.rowMax
  show (Finset.univ : Finset (Fin 2)).fold max (Ideal.ofBits .f32 0xFF800000#32) (y ∘ reduces_S8000x2_S8000.lift (ix1 p)) = _
  refine congrArg ((Finset.univ : Finset (Fin 2)).fold max (Ideal.ofBits .f32 0xFF800000#32)) (funext fun k => ?_)
  exact congrArg y (Cert.LibColumn.lift_cols reduces_S8000x2_S8000 p k)

/-- A block of two columns with the logarithm of each row's sum of exponentials taken off. -/
def lessLogSumExp2 (z : FVec Ideal S8000x2 .f32) : FVec Ideal S8000x2 .f32 :=
  subf z (broadcastTo S8000x2 (log (shapeCast S8000x1
    (multiReduction (F := Ideal) .add [1] S8000 (exp z) 0x00000000#32 reduces_S8000x2_S8000 (.inl rfl) rfl)
    shapeCasts_S8000_S8000x1)) broadcasts_S8000x1_S8000x2)

theorem lessLogSumExp2_apply (z : FVec Ideal S8000x2 .f32) (p : Fin 8000) (q : Fin 2) :
    lessLogSumExp2 z (ix2 p q) = z (ix2 p q) - Ideal.log (∑ k : Fin 2, Ideal.exp (z (ix2 p k))) := by
  unfold lessLogSumExp2
  rw [subf_apply, Cert.LibColumn.broadcastTo_a1_ab_apply]
  refine congrArg (z (ix2 p q) - ·) ?_
  show Ideal.log (shapeCast S8000x1
    (multiReduction (F := Ideal) .add [1] S8000 (exp z) 0x00000000#32 reduces_S8000x2_S8000 (.inl rfl) rfl)
    shapeCasts_S8000_S8000x1 (ix2 p (0 : Fin 1))) = _
  rw [Cert.LibColumn.shapeCast_a_a1_apply]
  refine congrArg Ideal.log ?_
  refine (Ideal.multiReduction_add_single (exp z) _ reduces_S8000x2_S8000 (.inl rfl) rfl (ix1 p)).trans ?_
  show ∑ k : Fin 2, exp z (reduces_S8000x2_S8000.lift (ix1 p) k) = _
  refine Finset.sum_congr rfl fun k _ => ?_
  rw [Cert.LibColumn.lift_cols reduces_S8000x2_S8000 p k]
  rfl

/-- The second bias region's body on a block: entry `(p, q)` is the log-softmax of row `p` of the biased block. -/
theorem biasLsm_block_apply (x0 : Vec Ideal S8000x2 .f32) (x2 : Vec Ideal S8000x1 .f32) (x6 : Vec Ideal S1x2 .f32)
    (p : Fin 8000) (q : Fin 2) :
    k3_pay1 x0 x2 x6 (ix2 p q)
      = Cert.GraphConv.lsm (fun f' => x0 (ix2 p f') * x2 (ix2 p (0 : Fin 1)) + x6 (ix2 (0 : Fin 1) f')) q := by
  have e : k3_pay1 x0 x2 x6 = lessLogSumExp2 (centred2 (biased2 x0 x2 x6)) := rfl
  rw [e, lessLogSumExp2_apply, centred2_apply]
  unfold Cert.GraphConv.lsm
  have hrow : (fun f => biased2 x0 x2 x6 (ix2 p f))
      = fun f' => x0 (ix2 p f') * x2 (ix2 p (0 : Fin 1)) + x6 (ix2 (0 : Fin 1) f') :=
    funext fun f => biased2_apply x0 x2 x6 p f
  simp only [centred2_apply, hrow, biased2_apply]

/-! ## The first bias region: the positive part, on `[200000, 16]` -/

section Region1

variable (V : (c : Dev nD) → (b : Ref sig .tc) → Buf (Elt Ideal) ((c : Thread nD τ).loc b))

/-- Where grid point `t` puts each window's block: row block `t` of the three row-blocked arrays, the one block of the
    bias. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the input's block at point `t` is row `8000 t + p` of the input. -/
theorem rows1_apply (c : Dev nD) (t : Fin cfg1.N) (p : Fin 8000) (q : Fin 16) (n : Fin 200000)
    (hn : n.val = t.val * 8000 + p.val) :
    (iblk1 V c 0 t : Vec Ideal S8000x16 .f32) (ix2 p q) = (V c main_v28 : S200000x16.Idx → EReal) (ix2 n q) := by
  obtain ⟨e0, e1, -⟩ := block_indices1 t
  unfold iblk1
  show (V c main_v28 : S200000x16.Idx → EReal) (((cfg1.win 0).blk t).view.emb (ix2 p q)) = _
  refine congrArg (V c main_v28 : S200000x16.Idx → EReal) ?_
  funext a; apply Fin.ext
  match a with
  | ⟨0, _⟩ => show win1_0.index t (0 : Fin 2) * 8000 + 1 * p.val = n.val; omega
  | ⟨1, _⟩ => show win1_0.index t (1 : Fin 2) * 16 + 1 * q.val = q.val; omega

/-- Row `p` of the scale column's block at point `t` is row `8000 t + p` of the column. -/
theorem scale1_apply (c : Dev nD) (t : Fin cfg1.N) (p : Fin 8000) (n : Fin 200000)
    (hn : n.val = t.val * 8000 + p.val) :
    (iblk1 V c 1 t : Vec Ideal S8000x1 .f32) (ix2 p (0 : Fin 1))
      = (V c main_v17 : S200000x1.Idx → EReal) (ix2 n (0 : Fin 1)) := by
  obtain ⟨-, -, e0, e1, -⟩ := block_indices1 t
  unfold iblk1
  show (V c main_v17 : S200000x1.Idx → EReal) (((cfg1.win 1).blk t).view.emb (ix2 p (0 : Fin 1))) = _
  refine congrArg (V c main_v17 : S200000x1.Idx → EReal) ?_
  funext a; apply Fin.ext
  match a with
  | ⟨0, _⟩ => show win1_1.index t (0 : Fin 2) * 8000 + 1 * p.val = n.val; omega
  | ⟨1, _⟩ => show win1_1.index t (1 : Fin 2) * 1 + 1 * 0 = 0; omega

/-- The bias' one block is the bias. -/
theorem bias1_apply (c : Dev nD) (t : Fin cfg1.N) (q : Fin 16) :
    (iblk1 V c 2 t : Vec Ideal S1x16 .f32) (ix2 (0 : Fin 1) q) = (V c main_v29 : S1x16.Idx → EReal) (ix2 (0 : Fin 1) q) := by
  obtain ⟨-, -, -, -, e0, e1, -⟩ := block_indices1 t
  unfold iblk1
  show (V c main_v29 : S1x16.Idx → EReal) (((cfg1.win 2).blk t).view.emb (ix2 (0 : Fin 1) q)) = _
  refine congrArg (V c main_v29 : S1x16.Idx → EReal) ?_
  funext a; apply Fin.ext
  match a with
  | ⟨0, _⟩ => show win1_2.index t (0 : Fin 2) * 1 + 1 * 0 = 0; omega
  | ⟨1, _⟩ => show win1_2.index t (1 : Fin 2) * 16 + 1 * q.val = q.val; omega

/-- Entry `(p, q)` of the result's block at point `t` sits at `(8000 t + p, q)` of the result. -/
theorem result1_emb (t : Fin cfg1.N) (p : Fin 8000) (q : Fin 16) (n : Fin 200000)
    (hn : n.val = t.val * 8000 + p.val) :
    (((cfg1.win 3).blk t).view.emb (ix2 p q) : S200000x16.Idx) = ix2 n q := by
  obtain ⟨-, -, -, -, -, -, e0, e1⟩ := block_indices1 t
  funext a; apply Fin.ext
  match a with
  | ⟨0, _⟩ => show win1_3.index t (0 : Fin 2) * 8000 + 1 * p.val = n.val; omega
  | ⟨1, _⟩ => show win1_3.index t (1 : Fin 2) * 16 + 1 * q.val = q.val; omega

/-- What point `t` writes back is block `t` of the positive part of the scaled input plus the bias, of the arrays as the region finds them. -/
theorem flushed1_eq (c : Dev nD) (t : Fin cfg1.N) :
    (dat1 V c).flushed 3 t
      = ((cfg1.win 3).blk t).view.read (Elt Ideal) (biasRelu (V c main_v28) (V c main_v17) (V c main_v29)) := by
  show (cfg1.win 3).cut (grid1.coords t) ((dat1 V c).after 3 t) = _
  rw [after1_3]
  unfold out1_3
  rw [View.canon_unit_zero zero_offsets]
  simp only [View.ld_unit_zero (S := S8000x16) zero_offsets, View.ld_unit_zero (S := S8000x1) zero_offsets,
    View.ld_unit_zero (S := S1x16) zero_offsets]
  funext j
  obtain ⟨p, q, rfl⟩ : ∃ (p : Fin 8000) (q : Fin 16), j = ix2 p q := ⟨j 0, j 1, eq_ix2 j⟩
  have ht : t.val < 25 := lt_of_lt_of_eq t.isLt N_1
  have hp : p.val < 8000 := p.isLt
  show k1_pay1 (iblk1 V c 0 t) (iblk1 V c 1 t) (iblk1 V c 2 t) (ix2 p q)
    = biasRelu (V c main_v28) (V c main_v17) (V c main_v29) (((cfg1.win 3).blk t).view.emb (ix2 p q))
  rw [result1_emb t p q ⟨t.val * 8000 + p.val, by omega⟩ rfl, biasRelu_apply]
  refine (biasRelu_block_apply (iblk1 V c 0 t) (iblk1 V c 1 t) (iblk1 V c 2 t) p q).trans ?_
  rw [rows1_apply V c t p q ⟨t.val * 8000 + p.val, by omega⟩ rfl,
    scale1_apply V c t p ⟨t.val * 8000 + p.val, by omega⟩ rfl, bias1_apply V c t q]

/-- An index of the result lies in point `t`'s block iff each coordinate lies in the block's range on its axis. -/
theorem mem_block1 (t : Fin cfg1.N) (i : S200000x16.Idx) :
    i ∈ ((cfg1.win 3).blk t).view.set ↔ ∀ a : Fin 2, win1_3.index t a * S8000x16.size a ≤ (i a).val
      ∧ (i a).val < win1_3.index t a * S8000x16.size a + S8000x16.size a := by
  show i ∈ ((View.whole main_v30).slice (win1_3.rect t)).set ↔ _
  rw [View.set_slice_whole, Rect.mem_set_unit]
  exact Iff.rfl

/-- Every index of the result is in some point's block: row `n` is in block `n / 8000`. -/
theorem covered1 (i : S200000x16.Idx) :
    ∃ t : Fin cfg1.N, (cfg1.win 3).flush t = true ∧ i ∈ ((cfg1.win 3).blk t).view.set := by
  have hi0 : (i 0).val < 200000 := (i 0).isLt
  have hi1 : (i 1).val < 16 := (i 1).isLt
  have hN : cfg1.N = 25 := N_1
  refine ⟨⟨(i 0).val / 8000, by rw [hN]; omega⟩, flush1_3 _, ?_⟩
  rw [mem_block1]
  obtain ⟨-, -, -, -, -, -, e0, e1⟩ := block_indices1 ⟨(i 0).val / 8000, by rw [hN]; omega⟩
  intro a
  match a with
  | ⟨0, _⟩ =>
    show win1_3.index _ (0 : Fin 2) * 8000 ≤ (i 0).val ∧ (i 0).val < win1_3.index _ (0 : Fin 2) * 8000 + 8000
    rw [e0]
    show (i 0).val / 8000 * 8000 ≤ (i 0).val ∧ (i 0).val < (i 0).val / 8000 * 8000 + 8000
    omega
  | ⟨1, _⟩ =>
    show win1_3.index _ (1 : Fin 2) * 16 ≤ (i 1).val ∧ (i 1).val < win1_3.index _ (1 : Fin 2) * 16 + 16
    rw [e1]; omega

/-- The result array after the region. -/
theorem array1 (c : Dev nD) :
    (dat1 V c).arrAt 3 cfg1.N = biasRelu (V c main_v28) (V c main_v17) (V c main_v29) :=
  (dat1 V c).arrAt_eq_of_cover 3 _ (fun t _ => flushed1_eq V c t) covered1

/-- The result array after the region, entry by entry, with the region's three input arrays named. -/
theorem final1 (c : Dev nD) (x : S200000x16.Idx → EReal) (d : S200000x1.Idx → EReal) (b : S1x16.Idx → EReal)
    (ex : V c main_v28 = x) (ed : V c main_v17 = d) (eb : V c main_v29 = b) (n : Fin 200000) (f : Fin 16) :
    ((dat1 V c).arrAt 3 cfg1.N : S200000x16.Idx → EReal) (ix2 n f)
      = max (x (ix2 n f) * d (ix2 n (0 : Fin 1)) + b (ix2 (0 : Fin 1) f)) 0 := by
  subst ex ed eb
  rw [array1 V c]
  rfl

end Region1

/-! ## The second bias region: the row-wise log-softmax, on `[200000, 2]` -/

section Region3

variable (V : (c : Dev nD) → (b : Ref sig .tc) → Buf (Elt Ideal) ((c : Thread nD τ).loc b))

/-- Where grid point `t` puts each window's block: row block `t` of the three row-blocked arrays, the one block of the
    bias. -/
theorem block_indices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the input's block at point `t` is row `8000 t + p` of the input. -/
theorem rows3_apply (c : Dev nD) (t : Fin cfg3.N) (p : Fin 8000) (q : Fin 2) (n : Fin 200000)
    (hn : n.val = t.val * 8000 + p.val) :
    (iblk3 V c 0 t : Vec Ideal S8000x2 .f32) (ix2 p q) = (V c main_v41 : S200000x2.Idx → EReal) (ix2 n q) := by
  obtain ⟨e0, e1, -⟩ := block_indices3 t
  unfold iblk3
  show (V c main_v41 : S200000x2.Idx → EReal) (((cfg3.win 0).blk t).view.emb (ix2 p q)) = _
  refine congrArg (V c main_v41 : S200000x2.Idx → EReal) ?_
  funext a; apply Fin.ext
  match a with
  | ⟨0, _⟩ => show win3_0.index t (0 : Fin 2) * 8000 + 1 * p.val = n.val; omega
  | ⟨1, _⟩ => show win3_0.index t (1 : Fin 2) * 2 + 1 * q.val = q.val; omega

/-- Row `p` of the scale column's block at point `t` is row `8000 t + p` of the column. -/
theorem scale3_apply (c : Dev nD) (t : Fin cfg3.N) (p : Fin 8000) (n : Fin 200000)
    (hn : n.val = t.val * 8000 + p.val) :
    (iblk3 V c 1 t : Vec Ideal S8000x1 .f32) (ix2 p (0 : Fin 1))
      = (V c main_v17 : S200000x1.Idx → EReal) (ix2 n (0 : Fin 1)) := by
  obtain ⟨-, -, e0, e1, -⟩ := block_indices3 t
  unfold iblk3
  show (V c main_v17 : S200000x1.Idx → EReal) (((cfg3.win 1).blk t).view.emb (ix2 p (0 : Fin 1))) = _
  refine congrArg (V c main_v17 : S200000x1.Idx → EReal) ?_
  funext a; apply Fin.ext
  match a with
  | ⟨0, _⟩ => show win3_1.index t (0 : Fin 2) * 8000 + 1 * p.val = n.val; omega
  | ⟨1, _⟩ => show win3_1.index t (1 : Fin 2) * 1 + 1 * 0 = 0; omega

/-- The bias' one block is the bias. -/
theorem bias3_apply (c : Dev nD) (t : Fin cfg3.N) (q : Fin 2) :
    (iblk3 V c 2 t : Vec Ideal S1x2 .f32) (ix2 (0 : Fin 1) q) = (V c main_v42 : S1x2.Idx → EReal) (ix2 (0 : Fin 1) q) := by
  obtain ⟨-, -, -, -, e0, e1, -⟩ := block_indices3 t
  unfold iblk3
  show (V c main_v42 : S1x2.Idx → EReal) (((cfg3.win 2).blk t).view.emb (ix2 (0 : Fin 1) q)) = _
  refine congrArg (V c main_v42 : S1x2.Idx → EReal) ?_
  funext a; apply Fin.ext
  match a with
  | ⟨0, _⟩ => show win3_2.index t (0 : Fin 2) * 1 + 1 * 0 = 0; omega
  | ⟨1, _⟩ => show win3_2.index t (1 : Fin 2) * 2 + 1 * q.val = q.val; omega

/-- Entry `(p, q)` of the result's block at point `t` sits at `(8000 t + p, q)` of the result. -/
theorem result3_emb (t : Fin cfg3.N) (p : Fin 8000) (q : Fin 2) (n : Fin 200000)
    (hn : n.val = t.val * 8000 + p.val) :
    (((cfg3.win 3).blk t).view.emb (ix2 p q) : S200000x2.Idx) = ix2 n q := by
  obtain ⟨-, -, -, -, -, -, e0, e1⟩ := block_indices3 t
  funext a; apply Fin.ext
  match a with
  | ⟨0, _⟩ => show win3_3.index t (0 : Fin 2) * 8000 + 1 * p.val = n.val; omega
  | ⟨1, _⟩ => show win3_3.index t (1 : Fin 2) * 2 + 1 * q.val = q.val; omega

/-- What point `t` writes back is block `t` of the row-wise log-softmax of the scaled input plus the bias, of the arrays as the region finds them. -/
theorem flushed3_eq (c : Dev nD) (t : Fin cfg3.N) :
    (dat3 V c).flushed 3 t
      = ((cfg3.win 3).blk t).view.read (Elt Ideal) (biasLsm (V c main_v41) (V c main_v17) (V c main_v42)) := by
  show (cfg3.win 3).cut (grid3.coords t) ((dat3 V c).after 3 t) = _
  rw [after3_3]
  unfold out3_3
  rw [View.canon_unit_zero zero_offsets]
  simp only [View.ld_unit_zero (S := S8000x2) zero_offsets, View.ld_unit_zero (S := S8000x1) zero_offsets,
    View.ld_unit_zero (S := S1x2) zero_offsets]
  funext j
  obtain ⟨p, q, rfl⟩ : ∃ (p : Fin 8000) (q : Fin 2), j = ix2 p q := ⟨j 0, j 1, eq_ix2 j⟩
  have ht : t.val < 25 := lt_of_lt_of_eq t.isLt N_3
  have hp : p.val < 8000 := p.isLt
  show k3_pay1 (iblk3 V c 0 t) (iblk3 V c 1 t) (iblk3 V c 2 t) (ix2 p q)
    = biasLsm (V c main_v41) (V c main_v17) (V c main_v42) (((cfg3.win 3).blk t).view.emb (ix2 p q))
  rw [result3_emb t p q ⟨t.val * 8000 + p.val, by omega⟩ rfl, biasLsm_apply]
  refine (biasLsm_block_apply (iblk3 V c 0 t) (iblk3 V c 1 t) (iblk3 V c 2 t) p q).trans ?_
  refine congrArg (fun v => Cert.GraphConv.lsm v q) (funext fun f' => ?_)
  rw [rows3_apply V c t p f' ⟨t.val * 8000 + p.val, by omega⟩ rfl,
    scale3_apply V c t p ⟨t.val * 8000 + p.val, by omega⟩ rfl, bias3_apply V c t f']

/-- An index of the result lies in point `t`'s block iff each coordinate lies in the block's range on its axis. -/
theorem mem_block3 (t : Fin cfg3.N) (i : S200000x2.Idx) :
    i ∈ ((cfg3.win 3).blk t).view.set ↔ ∀ a : Fin 2, win3_3.index t a * S8000x2.size a ≤ (i a).val
      ∧ (i a).val < win3_3.index t a * S8000x2.size a + S8000x2.size a := by
  show i ∈ ((View.whole main_v43).slice (win3_3.rect t)).set ↔ _
  rw [View.set_slice_whole, Rect.mem_set_unit]
  exact Iff.rfl

/-- Every index of the result is in some point's block: row `n` is in block `n / 8000`. -/
theorem covered3 (i : S200000x2.Idx) :
    ∃ t : Fin cfg3.N, (cfg3.win 3).flush t = true ∧ i ∈ ((cfg3.win 3).blk t).view.set := by
  have hi0 : (i 0).val < 200000 := (i 0).isLt
  have hi1 : (i 1).val < 2 := (i 1).isLt
  have hN : cfg3.N = 25 := N_3
  refine ⟨⟨(i 0).val / 8000, by rw [hN]; omega⟩, flush3_3 _, ?_⟩
  rw [mem_block3]
  obtain ⟨-, -, -, -, -, -, e0, e1⟩ := block_indices3 ⟨(i 0).val / 8000, by rw [hN]; omega⟩
  intro a
  match a with
  | ⟨0, _⟩ =>
    show win3_3.index _ (0 : Fin 2) * 8000 ≤ (i 0).val ∧ (i 0).val < win3_3.index _ (0 : Fin 2) * 8000 + 8000
    rw [e0]
    show (i 0).val / 8000 * 8000 ≤ (i 0).val ∧ (i 0).val < (i 0).val / 8000 * 8000 + 8000
    omega
  | ⟨1, _⟩ =>
    show win3_3.index _ (1 : Fin 2) * 2 ≤ (i 1).val ∧ (i 1).val < win3_3.index _ (1 : Fin 2) * 2 + 2
    rw [e1]; omega

/-- The result array after the region. -/
theorem array3 (c : Dev nD) :
    (dat3 V c).arrAt 3 cfg3.N = biasLsm (V c main_v41) (V c main_v17) (V c main_v42) :=
  (dat3 V c).arrAt_eq_of_cover 3 _ (fun t _ => flushed3_eq V c t) covered3

/-- The result array after the region, entry by entry, with the region's three input arrays named. -/
theorem final3 (c : Dev nD) (x : S200000x2.Idx → EReal) (d : S200000x1.Idx → EReal) (b : S1x2.Idx → EReal)
    (ex : V c main_v41 = x) (ed : V c main_v17 = d) (eb : V c main_v42 = b) (n : Fin 200000) (f : Fin 2) :
    ((dat3 V c).arrAt 3 cfg3.N : S200000x2.Idx → EReal) (ix2 n f)
      = Cert.GraphConv.lsm (fun f' => x (ix2 n f') * d (ix2 n (0 : Fin 1)) + b (ix2 (0 : Fin 1) f')) f := by
  subst ex ed eb
  rw [array3 V c]
  rfl

end Region3

end Cert.KernelIdeal.Blocks

end
-- ==== Proof.KernelValue.lean ====
/-
  The idealized kernel program's result, index by index, as two graph-convolution layers in the "scaled first"
  arrangement followed by a row log-softmax: region 0 scales and projects the inputs, the host gathers the rows at the
  edges' sources and sums them at the destinations, region 1 scales by the destination, adds the bias and clamps at
  zero; regions 2 and 3 and the host operations between them repeat this on the hidden features, ending in the
  log-softmax of each row.
-/
import proofs.«102351_j24489903522241_1_alg».proof.Proof.KernelCarry
import proofs.«102351_j24489903522241_1_alg».proof.Proof.KernelHost
import proofs.«102351_j24489903522241_1_alg».proof.Proof.RegionScaleProj
import proofs.«102351_j24489903522241_1_alg».proof.Proof.RegionBias
import proofs.«102351_j24489903522241_1_alg».proof.Proof.GraphLayer
import proofs.«102351_j24489903522241_1_alg».proof.Proof.RowLogSoftmax

set_option maxRecDepth 16384

noncomputable section

open scoped BigOperators

namespace Cert.KernelIdeal.Value

open Cert.KernelIdeal Cert.KernelIdeal.Gen Cert.KernelIdeal.Facts Cert.GraphConv
open Cert.KernelIdeal.Carry Cert.KernelIdeal.HostValue Cert.KernelIdeal.Blocks
open Idealize.ShloMosaic Idealize.ShloMosaic.TcCoe Idealize.SL.Sem Idealize.ShloMosaic.ValueIdx
open Cert.LibScatterAddRows (landing)

variable (m : (ℓ : Loc nD τ sig) → Buf (Elt Ideal) ℓ) (ρ : Dev nD → PrngReg) (c : Dev nD)

/-- The wrapped source column and the destination column of the edge list `s`, `d`. -/
abbrev srcCol (s : S6600000.Idx → BitVec 32) : IVec ⟨2, ![Ne, 1]⟩ 32 :=
  startIdx bcast_S6600000_S6600000x1_0 bcast_S_S6600000 s
abbrev dstCol (d : S6600000.Idx → BitVec 32) : IVec ⟨2, ![Ne, 1]⟩ 32 :=
  scatIdx bcast_S6600000_S6600000x1_0 d

variable (s d : S6600000.Idx → BitVec 32) (hs : W1 m ρ c (Proc.devRef .tc main_v3) = s)
  (hd : W1 m ρ c (Proc.devRef .tc main_v6) = d)
  (dc : S200000x1.Idx → EReal) (hdc : W3 m ρ c (Proc.devRef .tc main_v17) = dc)
  (x0 : S200000x28.Idx → EReal) (h0 : m ((c : Thread nD τ).loc main_arg0) = x0)
  (x2 : S28x16.Idx → EReal) (h2 : m ((c : Thread nD τ).loc main_arg2) = x2)
  (x3 : S16.Idx → EReal) (h3 : m ((c : Thread nD τ).loc main_arg3) = x3)
  (x4 : S16x2.Idx → EReal) (h4 : m ((c : Thread nD τ).loc main_arg4) = x4)
  (x5 : S2.Idx → EReal) (h5 : m ((c : Thread nD τ).loc main_arg5) = x5)

/-- The hidden features: the first layer clamped at zero. -/
def hidden (i : Fin 200000) (k : Fin 16) : EReal :=
  max (layerK (srcCol s) (dstCol d) (fun j => dc (ix2 j (0 : Fin 1))) (fun j a => x0 (ix2 j a))
    (fun a b => x2 (ix2 a b)) (fun b => x3 (ix1 b)) i k) 0

include hs hd hdc h0 h2 h3 in
/-- Region 1's output is the hidden features. -/
theorem v30_apply (i : Fin 200000) (k : Fin 16) :
    W6 m ρ c (Proc.devRef .tc main_v30) (ix2 i k) = hidden s d dc x0 x2 x3 i k := by
  have h18 : ∀ (j : Fin 200000) (b : Fin 16), W4 m ρ c (Proc.devRef .tc main_v18) (ix2 j b)
      = ∑ a : Fin 28, (x0 (ix2 j a) * dc (ix2 j (0 : Fin 1))) * x2 (ix2 a b) := fun j b =>
    (congrFun (W4_arr m ρ c 3) (ix2 j b)).trans
      (final0 (V3 m ρ) c x0 dc x2 ((arg0_W3 m ρ c).trans h0) hdc ((arg2_W3 m ρ c).trans h2) j b)
  have h28 : W5 m ρ c (Proc.devRef .tc main_v28) (ix2 i k)
      = (0 : EReal) + ∑ e ∈ landing (dstCol d) i.val,
          ∑ a : Fin 28, (x0 (ix2 (node (srcCol s) e) a) * dc (ix2 (node (srcCol s) e) (0 : Fin 1))) * x2 (ix2 a k) :=
    (v28_apply m ρ c _ rfl s d ((v3_W4 m ρ c).trans hs) ((v6_W4 m ρ c).trans hd) i k).trans
      (congrArg (fun v : EReal => 0 + v) (Finset.sum_congr rfl fun e _ => h18 _ k))
  have h29 : W5 m ρ c (Proc.devRef .tc main_v29) (ix2 (0 : Fin 1) k) = x3 (ix1 k) :=
    v29_apply m ρ c x3 ((arg3_W4 m ρ c).trans h3) k
  have h30 := (congrFun (W6_arr m ρ c 3) (ix2 i k)).trans
    (final1 (V5 m ρ) c (W5 m ρ c (Proc.devRef .tc main_v28)) dc (W5 m ρ c (Proc.devRef .tc main_v29)) rfl
      ((v17_W5 m ρ c).trans hdc) rfl i k)
  rw [h28, h29] at h30
  exact h30

include hs hd hdc h0 h2 h3 h4 h5 in
/-- THE KERNEL PROGRAM'S RESULT at `(n, f)`. -/
theorem value_apply (n : Fin 200000) (f : Fin 2) :
    W9 m ρ c (Proc.devRef .tc main_v43) (ix2 n f)
      = lsm (layerK (srcCol s) (dstCol d) (fun j => dc (ix2 j (0 : Fin 1))) (hidden s d dc x0 x2 x3)
          (fun a b => x4 (ix2 a b)) (fun b => x5 (ix1 b)) n) f := by
  have e30 : V6 m ρ c main_v30 = ofEntries (hidden s d dc x0 x2 x3) := funext fun idx => by
    obtain ⟨j, a, rfl⟩ : ∃ (j : Fin 200000) (a : Fin 16), idx = ix2 j a := ⟨idx 0, idx 1, eq_ix2 idx⟩
    exact v30_apply m ρ c s d hs hd dc hdc x0 h0 x2 h2 x3 h3 j a
  have h31 : ∀ (j : Fin 200000) (b : Fin 2), W7 m ρ c (Proc.devRef .tc main_v31) (ix2 j b)
      = ∑ a : Fin 16, (hidden s d dc x0 x2 x3 j a * dc (ix2 j (0 : Fin 1))) * x4 (ix2 a b) := fun j b =>
    (congrFun (W7_arr m ρ c 3) (ix2 j b)).trans
      (final2 (V6 m ρ) c (ofEntries (hidden s d dc x0 x2 x3)) dc x4 e30 ((v17_W6 m ρ c).trans hdc)
        ((arg4_W6 m ρ c).trans h4) j b)
  have h41 : ∀ b : Fin 2, W8 m ρ c (Proc.devRef .tc main_v41) (ix2 n b)
      = (0 : EReal) + ∑ e ∈ landing (dstCol d) n.val,
          ∑ a : Fin 16, (hidden s d dc x0 x2 x3 (node (srcCol s) e) a * dc (ix2 (node (srcCol s) e) (0 : Fin 1)))
            * x4 (ix2 a b) := fun b =>
    (v41_apply m ρ c _ rfl s d ((v3_W7 m ρ c).trans hs) ((v6_W7 m ρ c).trans hd) n b).trans
      (congrArg (fun v : EReal => 0 + v) (Finset.sum_congr rfl fun e _ => h31 _ b))
  have h42 : ∀ b : Fin 2, W8 m ρ c (Proc.devRef .tc main_v42) (ix2 (0 : Fin 1) b) = x5 (ix1 b) := fun b =>
    v42_apply m ρ c x5 ((arg5_W7 m ρ c).trans h5) b
  have h43 := (congrFun (W9_arr m ρ c 3) (ix2 n f)).trans
    (final3 (V8 m ρ) c (W8 m ρ c (Proc.devRef .tc main_v41)) dc (W8 m ρ c (Proc.devRef .tc main_v42)) rfl
      ((v17_W8 m ρ c).trans hdc) rfl n f)
  refine h43.trans (congrArg (fun v : Fin 2 → EReal => lsm v f) (funext fun b => ?_))
  rw [h41 b, h42 b]
  rfl

end Cert.KernelIdeal.Value

end
-- ==== Proof.RefLayers.lean ====
/-
  The two graph-convolution layers of the reference program at an index, as closed formulas.

  A layer projects the node features, gathers the projected row of every edge's source node, scales it by the product
  of the per-node scales of the edge's two end nodes (each scale gathered by its own index column), sums the scaled rows
  into the rows the destination column names, and adds the bias. Read index by index this is `Cert.GraphConv.layerR`
  of the index columns, the scale vector, the features, the weights and the bias. Between the layers every entry is
  replaced by its maximum with zero.

  The index columns and the two scale vectors stay the stages that compute them; nothing here opens them.
-/
import proofs.«102351_j24489903522241_1_alg».proof.Proof.RefRead
import proofs.«102351_j24489903522241_1_alg».proof.Proof.GraphLayer
import proofs.«102351_j24489903522241_1_alg».proof.Proof.RowLogSoftmax
import proofs.«102351_j24489903522241_1_alg».proof.Proof.LibScatterAddRows
import proofs.«102351_j24489903522241_1_alg».proof.Proof.LibGatheredSums
import proofs.«102351_j24489903522241_1_alg».proof.Proof.LibColumn
import Idealize.ShloMosaic.PureOps.Reduce

noncomputable section

open scoped BigOperators

namespace Cert.ReferenceIdeal.RefValue

open Cert.ReferenceIdeal Cert.ReferenceIdeal.Gen Cert.ReferenceIdeal.Read Cert.GraphConv Idealize.ShloMosaic Idealize.ShloMosaic.ValueIdx
open Cert.LibScatterAddRows (landing)
open Cert.LibGatherRows (clampRow)

/-! ## Index equations: the composed index functions of the stages at literal coordinates -/

theorem lidx_v7 (r : Fin 200000) (c : Fin 16) (k : Fin 28) : lidx_main_v7 (ix2 r c) k = ix2 r k :=
  funext fun a => Fin.ext (by match a with | ⟨0, _⟩ => rfl | ⟨1, _⟩ => rfl)

theorem ridx_v7 (r : Fin 200000) (c : Fin 16) (k : Fin 28) : ridx_main_v7 (ix2 r c) k = ix2 k c :=
  funext fun a => Fin.ext (by match a with | ⟨0, _⟩ => rfl | ⟨1, _⟩ => rfl)

theorem lidx_v50 (r : Fin 200000) (c : Fin 2) (k : Fin 16) : lidx_main_v50 (ix2 r c) k = ix2 r k :=
  funext fun a => Fin.ext (by match a with | ⟨0, _⟩ => rfl | ⟨1, _⟩ => rfl)

theorem ridx_v50 (r : Fin 200000) (c : Fin 2) (k : Fin 16) : ridx_main_v50 (ix2 r c) k = ix2 k c :=
  funext fun a => Fin.ext (by match a with | ⟨0, _⟩ => rfl | ⟨1, _⟩ => rfl)

/-! ## The first layer -/

section Layer1
variable (x0 : (⟨S200000x28, .f32⟩ : BufTy).Contents (Elt Ideal)) (x1 : (⟨S2x6400000, .i32⟩ : BufTy).Contents (Elt Ideal)) (x2 : (⟨S28x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal))

/-- The projected row of an edge's source node: the projection is a sum over the 28 input features. -/
theorem v39_at (e : Fin 6600000) (c : Fin 16) :
    val_main_v39 (F := Ideal) x0 x1 x2 (ix2 e c)
      = ∑ k : Fin 28, x0 (ix2 (node (val_main_v38 (F := Ideal) x1) e) k) * x2 (ix2 k c) := by
  unfold val_main_v39 node
  refine (Cert.LibGatheredSums.gather_rows_at
    (wf := Facts₀.gather_S200000x16_S6600000x1_S6600000x16_1_0_n_n_0_1_116_wf)
    gather_S200000x16_S6600000x1_S6600000x16_1_0_n_n_0_1_116 rfl Nn_pos
    (val_main_v7 (F := Ideal) x0 x2) (val_main_v38 (F := Ideal) x1) e c).trans ?_
  rw [val_main_v7_apply]
  exact Finset.sum_congr rfl fun k _ => by rw [lidx_v7, ridx_v7]

/-- An edge's scale: the product of the scales of its two end nodes. -/
theorem v32_at (e : Fin 6600000) :
    val_main_v32 (F := Ideal) x1 (ix1 e)
      = val_main_v17 (F := Ideal) x1 (ix1 (node (val_main_v23 (F := Ideal) x1) e))
        * val_main_v17 (F := Ideal) x1 (ix1 (node (val_main_v30 (F := Ideal) x1) e)) := by
  rw [val_main_v32_apply]
  unfold val_main_v24 val_main_v31 node
  rw [Cert.LibGatheredSums.gather_vec_at (wf := Facts₀.gather_S200000_S6600000x1_S6600000_n_0_n_n_0_1_1_wf)
      gather_S200000_S6600000x1_S6600000_n_0_n_n_0_1_1 rfl Nn_pos (val_main_v17 (F := Ideal) x1) (val_main_v23 (F := Ideal) x1) e,
    Cert.LibGatheredSums.gather_vec_at (wf := Facts₀.gather_S200000_S6600000x1_S6600000_n_0_n_n_0_1_1_wf)
      gather_S200000_S6600000x1_S6600000_n_0_n_n_0_1_1 rfl Nn_pos (val_main_v17 (F := Ideal) x1) (val_main_v30 (F := Ideal) x1) e]
  rfl

/-- The edge's scale spread over the 16 columns. -/
theorem v41_at (e : Fin 6600000) (c : Fin 16) :
    val_main_v41 (F := Ideal) x1 (ix2 e c) = val_main_v32 (F := Ideal) x1 (ix1 e) := by
  rw [val_main_v41_apply, val_main_v40_apply]
  exact congrArg _ (funext fun a => Fin.ext (by match a with | ⟨0, _⟩ => rfl))

/-- An edge's scaled row. -/
theorem v42_at (e : Fin 6600000) (c : Fin 16) :
    val_main_v42 (F := Ideal) x0 x1 x2 (ix2 e c)
      = (∑ k : Fin 28, x0 (ix2 (node (val_main_v38 (F := Ideal) x1) e) k) * x2 (ix2 k c))
        * (val_main_v17 (F := Ideal) x1 (ix1 (node (val_main_v23 (F := Ideal) x1) e))
          * val_main_v17 (F := Ideal) x1 (ix1 (node (val_main_v30 (F := Ideal) x1) e))) := by
  rw [val_main_v42_apply, v39_at, v41_at, v32_at]
  rfl

/-- The scaled rows summed into the rows their destinations name, from zero. -/
theorem v45_at (i : Fin 200000) (c : Fin 16) :
    val_main_v45 (F := Ideal) x0 x1 x2 (ix2 i c)
      = 0 + ∑ e ∈ landing (val_main_v44 (F := Ideal) x1) i.val,
          (∑ k : Fin 28, x0 (ix2 (node (val_main_v38 (F := Ideal) x1) e) k) * x2 (ix2 k c))
          * (val_main_v17 (F := Ideal) x1 (ix1 (node (val_main_v23 (F := Ideal) x1) e))
            * val_main_v17 (F := Ideal) x1 (ix1 (node (val_main_v30 (F := Ideal) x1) e))) := by
  unfold val_main_v45
  refine (Cert.LibScatterAddRows.scatterAdd_rows_apply
    Facts₀.scatter_S200000x16_S6600000x1_S6600000x16_1_0_0_1_wf (val_main_v44 (F := Ideal) x1)
    scatter_S200000x16_S6600000x1_S6600000x16_1_0_0_1 rfl (val_main_v43 (F := Ideal))
    (val_main_v42 (F := Ideal) x0 x1 x2) i c).trans ?_
  rw [val_main_v43_apply, val_main_cst_9_apply, Ideal.ofBits_def, Ideal.ofBits_zero_f32]
  exact congrArg (0 + ·) (Finset.sum_congr rfl fun e _ => v42_at x0 x1 x2 e c)

/-- THE FIRST LAYER before its activation, at `(i, k)`. -/
theorem layer1_apply (i : Fin 200000) (k : Fin 16) :
    val_main_v48 (F := Ideal) x0 x1 x2 x3 (ix2 i k)
      = layerR (val_main_v38 (F := Ideal) x1) (val_main_v23 (F := Ideal) x1) (val_main_v30 (F := Ideal) x1)
          (val_main_v44 (F := Ideal) x1) (fun j => val_main_v17 (F := Ideal) x1 (ix1 j))
          (fun j a => x0 (ix2 j a)) (fun a b => x2 (ix2 a b)) (fun b => x3 (ix1 b)) i k := by
  have hb : idx_main_v46 (idx_main_v47 (ix2 i k)) = ix1 k :=
    funext fun a => Fin.ext (by match a with | ⟨0, _⟩ => rfl)
  rw [val_main_v48_apply, v45_at, val_main_v47_apply, val_main_v46_apply, hb, Ideal.addf_def]
  unfold layerR
  rfl

/-- The first layer's output: every entry's maximum with zero. -/
theorem v49_at (i : Fin 200000) (k : Fin 16) :
    val_main_v49 (F := Ideal) x0 x1 x2 x3 (ix2 i k)
      = max (layerR (val_main_v38 (F := Ideal) x1) (val_main_v23 (F := Ideal) x1) (val_main_v30 (F := Ideal) x1)
          (val_main_v44 (F := Ideal) x1) (fun j => val_main_v17 (F := Ideal) x1 (ix1 j))
          (fun j a => x0 (ix2 j a)) (fun a b => x2 (ix2 a b)) (fun b => x3 (ix1 b)) i k) 0 := by
  rw [val_main_v49_apply, layer1_apply, val_main_call1_v0_apply, val_main_call1_cst_apply, Ideal.maximumf_def,
    Ideal.ofBits_def, Ideal.ofBits_zero_f32]

end Layer1

/-! ## The second layer -/

section Layer2
variable (x0 : (⟨S200000x28, .f32⟩ : BufTy).Contents (Elt Ideal)) (x1 : (⟨S2x6400000, .i32⟩ : BufTy).Contents (Elt Ideal)) (x2 : (⟨S28x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal))

/-- The second projection, a sum over the 16 hidden features of the first layer's output. -/
theorem v50_at (r : Fin 200000) (c : Fin 2) :
    val_main_v50 (F := Ideal) x0 x1 x2 x3 x4 (ix2 r c)
      = ∑ k : Fin 16, val_main_v49 (F := Ideal) x0 x1 x2 x3 (ix2 r k) * x4 (ix2 k c) := by
  rw [val_main_v50_apply]
  exact Finset.sum_congr rfl fun k _ => by rw [lidx_v50, ridx_v50]

/-- The projected row of an edge's source node. -/
theorem v82_at (e : Fin 6600000) (c : Fin 2) :
    val_main_v82 (F := Ideal) x0 x1 x2 x3 x4 (ix2 e c)
      = ∑ k : Fin 16, val_main_v49 (F := Ideal) x0 x1 x2 x3 (ix2 (node (val_main_v81 (F := Ideal) x1) e) k) * x4 (ix2 k c) := by
  unfold val_main_v82 node
  refine (Cert.LibGatheredSums.gather_rows_at
    (wf := Facts₀.gather_S200000x2_S6600000x1_S6600000x2_1_0_n_n_0_1_12_wf)
    gather_S200000x2_S6600000x1_S6600000x2_1_0_n_n_0_1_12 rfl Nn_pos
    (val_main_v50 (F := Ideal) x0 x1 x2 x3 x4) (val_main_v81 (F := Ideal) x1) e c).trans ?_
  exact v50_at x0 x1 x2 x3 x4 _ c

/-- An edge's scale: the product of the scales of its two end nodes. -/
theorem v75_at (e : Fin 6600000) :
    val_main_v75 (F := Ideal) x1 (ix1 e)
      = val_main_v60 (F := Ideal) x1 (ix1 (node (val_main_v66 (F := Ideal) x1) e))
        * val_main_v60 (F := Ideal) x1 (ix1 (node (val_main_v73 (F := Ideal) x1) e)) := by
  rw [val_main_v75_apply]
  unfold val_main_v67 val_main_v74 node
  rw [Cert.LibGatheredSums.gather_vec_at (wf := Facts₀.gather_S200000_S6600000x1_S6600000_n_0_n_n_0_1_1_wf)
      gather_S200000_S6600000x1_S6600000_n_0_n_n_0_1_1 rfl Nn_pos (val_main_v60 (F := Ideal) x1) (val_main_v66 (F := Ideal) x1) e,
    Cert.LibGatheredSums.gather_vec_at (wf := Facts₀.gather_S200000_S6600000x1_S6600000_n_0_n_n_0_1_1_wf)
      gather_S200000_S6600000x1_S6600000_n_0_n_n_0_1_1 rfl Nn_pos (val_main_v60 (F := Ideal) x1) (val_main_v73 (F := Ideal) x1) e]
  rfl

/-- The edge's scale spread over the 2 columns. -/
theorem v84_at (e : Fin 6600000) (c : Fin 2) :
    val_main_v84 (F := Ideal) x1 (ix2 e c) = val_main_v75 (F := Ideal) x1 (ix1 e) := by
  rw [val_main_v84_apply, val_main_v83_apply]
  exact congrArg _ (funext fun a => Fin.ext (by match a with | ⟨0, _⟩ => rfl))

/-- An edge's scaled row. -/
theorem v85_at (e : Fin 6600000) (c : Fin 2) :
    val_main_v85 (F := Ideal) x0 x1 x2 x3 x4 (ix2 e c)
      = (∑ k : Fin 16, val_main_v49 (F := Ideal) x0 x1 x2 x3 (ix2 (node (val_main_v81 (F := Ideal) x1) e) k) * x4 (ix2 k c))
        * (val_main_v60 (F := Ideal) x1 (ix1 (node (val_main_v66 (F := Ideal) x1) e))
          * val_main_v60 (F := Ideal) x1 (ix1 (node (val_main_v73 (F := Ideal) x1) e))) := by
  rw [val_main_v85_apply, v82_at, v84_at, v75_at]
  rfl

/-- The scaled rows summed into the rows their destinations name, from zero. -/
theorem v88_at (i : Fin 200000) (c : Fin 2) :
    val_main_v88 (F := Ideal) x0 x1 x2 x3 x4 (ix2 i c)
      = 0 + ∑ e ∈ landing (val_main_v87 (F := Ideal) x1) i.val,
          (∑ k : Fin 16, val_main_v49 (F := Ideal) x0 x1 x2 x3 (ix2 (node (val_main_v81 (F := Ideal) x1) e) k) * x4 (ix2 k c))
          * (val_main_v60 (F := Ideal) x1 (ix1 (node (val_main_v66 (F := Ideal) x1) e))
            * val_main_v60 (F := Ideal) x1 (ix1 (node (val_main_v73 (F := Ideal) x1) e))) := by
  unfold val_main_v88
  refine (Cert.LibScatterAddRows.scatterAdd_rows_apply
    Facts₀.scatter_S200000x2_S6600000x1_S6600000x2_1_0_0_1_wf (val_main_v87 (F := Ideal) x1)
    scatter_S200000x2_S6600000x1_S6600000x2_1_0_0_1 rfl (val_main_v86 (F := Ideal))
    (val_main_v85 (F := Ideal) x0 x1 x2 x3 x4) i c).trans ?_
  rw [val_main_v86_apply, val_main_cst_21_apply, Ideal.ofBits_def, Ideal.ofBits_zero_f32]
  exact congrArg (0 + ·) (Finset.sum_congr rfl fun e _ => v85_at x0 x1 x2 x3 x4 e c)

/-- THE SECOND LAYER over the first layer's output as it stands, at `(n, f)`. -/
theorem layer2_apply (n : Fin 200000) (f : Fin 2) :
    val_main_v91 (F := Ideal) x0 x1 x2 x3 x4 x5 (ix2 n f)
      = layerR (val_main_v81 (F := Ideal) x1) (val_main_v66 (F := Ideal) x1) (val_main_v73 (F := Ideal) x1)
          (val_main_v87 (F := Ideal) x1) (fun j => val_main_v60 (F := Ideal) x1 (ix1 j))
          (fun j a => val_main_v49 (F := Ideal) x0 x1 x2 x3 (ix2 j a)) (fun a b => x4 (ix2 a b)) (fun b => x5 (ix1 b)) n f := by
  have hb : idx_main_v89 (idx_main_v90 (ix2 n f)) = ix1 f :=
    funext fun a => Fin.ext (by match a with | ⟨0, _⟩ => rfl)
  rw [val_main_v91_apply, v88_at, val_main_v90_apply, val_main_v89_apply, hb, Ideal.addf_def]
  unfold layerR
  rfl

/-- The second layer over the first layer's closed form. -/
theorem layer2_closed (n : Fin 200000) (f : Fin 2) :
    val_main_v91 (F := Ideal) x0 x1 x2 x3 x4 x5 (ix2 n f)
      = layerR (val_main_v81 (F := Ideal) x1) (val_main_v66 (F := Ideal) x1) (val_main_v73 (F := Ideal) x1)
          (val_main_v87 (F := Ideal) x1) (fun j => val_main_v60 (F := Ideal) x1 (ix1 j))
          (fun j a => max (layerR (val_main_v38 (F := Ideal) x1) (val_main_v23 (F := Ideal) x1) (val_main_v30 (F := Ideal) x1)
          (val_main_v44 (F := Ideal) x1) (fun j => val_main_v17 (F := Ideal) x1 (ix1 j))
          (fun j a => x0 (ix2 j a)) (fun a b => x2 (ix2 a b)) (fun b => x3 (ix1 b)) j a) 0)
          (fun a b => x4 (ix2 a b)) (fun b => x5 (ix1 b)) n f := by
  rw [layer2_apply]
  exact congrArg (fun h => layerR (val_main_v81 (F := Ideal) x1) (val_main_v66 (F := Ideal) x1) (val_main_v73 (F := Ideal) x1)
      (val_main_v87 (F := Ideal) x1) (fun j => val_main_v60 (F := Ideal) x1 (ix1 j)) h
      (fun a b => x4 (ix2 a b)) (fun b => x5 (ix1 b)) n f)
    (funext fun j => funext fun a => v49_at x0 x1 x2 x3 j a)

end Layer2

end Cert.ReferenceIdeal.RefValue

end
-- ==== Proof.RefTail.lean ====
/-
  The log-softmax tail of the reference program at an index.

  The tail takes each row's largest entry as a running maximum from the starting value, takes the maximum with that
  starting value once more (which changes nothing: a fold of `max` is at least what it starts from), subtracts it from
  every entry, and subtracts the logarithm of the row's sum of exponentials: `Cert.GraphConv.lsm` of the row.
-/
import proofs.«102351_j24489903522241_1_alg».proof.Proof.RefRead
import proofs.«102351_j24489903522241_1_alg».proof.Proof.RowLogSoftmax
import proofs.«102351_j24489903522241_1_alg».proof.Proof.LibColumn
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Cert.GraphConv Idealize.ShloMosaic Idealize.ShloMosaic.ValueIdx

/-! ## The log-softmax tail -/

section Tail
variable (x0 : (⟨S200000x28, .f32⟩ : BufTy).Contents (Elt Ideal)) (x1 : (⟨S2x6400000, .i32⟩ : BufTy).Contents (Elt Ideal)) (x2 : (⟨S28x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal))

/-- A fold of `max` is at least the value it starts from, so taking the maximum with that value again changes nothing. -/
theorem max_start_rowMax (v : Fin 2 → EReal) : max (Ideal.ofBits .f32 0xFF800000#32) (rowMax v) = rowMax v :=
  max_eq_right ((Finset.le_fold_max _).mpr (Or.inl le_rfl))

/-- The running maximum, from the starting value, over the two entries of row `n` of any array of two columns. -/
theorem rowfold_at (y : FVec Ideal S200000x2 .f32) (n : Fin 200000) :
    Host.reduce FloatOps.maximumf y (val_main_call3_cst (F := Ideal)) reducesTo_S200000x2_S200000_d1 h_S_ (ix1 n)
      = rowMax fun f' => y (ix2 n f') := by
  unfold rowMax
  have hred : S200000x2.Reduces [1] S200000 := by decide
  refine (Host.reduce_eq_fold_single (α := Ideal .f32) (s := S200000x2) (t := S200000)
    (FloatOps.maximumf (F := Ideal) (φ := .f32)) y (val_main_call3_cst (F := Ideal))
    reducesTo_S200000x2_S200000_d1 hred h_S_ (ix1 n)).trans ?_
  have hf : (y ∘ hred.lift (ix1 n)) = fun k : Fin 2 => y (ix2 n k) :=
    funext fun k => congrArg y (Cert.LibColumn.lift_cols hred n k)
  rw [val_main_call3_cst_apply, Ideal.ofBits_def, hf]
  rfl

/-- The running maximum over the two entries of a row of the second layer's output. -/
theorem c3v0_at (n : Fin 200000) :
    val_main_call3_v0 (F := Ideal) x0 x1 x2 x3 x4 x5 (ix1 n)
      = rowMax fun f' => val_main_v91 (F := Ideal) x0 x1 x2 x3 x4 x5 (ix2 n f') := by
  unfold val_main_call3_v0
  exact rowfold_at (val_main_v91 (F := Ideal) x0 x1 x2 x3 x4 x5) n

/-- Every entry less its row's largest entry. -/
theorem c3v5_at (n : Fin 200000) (f : Fin 2) :
    val_main_call3_v5 (F := Ideal) x0 x1 x2 x3 x4 x5 (ix2 n f)
      = val_main_v91 (F := Ideal) x0 x1 x2 x3 x4 x5 (ix2 n f)
        - rowMax fun f' => val_main_v91 (F := Ideal) x0 x1 x2 x3 x4 x5 (ix2 n f') := by
  have hidx : idx_main_call3_v3 (idx_main_call3_v4 (ix2 n f)) = ix1 n :=
    funext fun a => Fin.ext (by match a with | ⟨0, _⟩ => rfl)
  rw [val_main_call3_v5_apply, val_main_call3_v4_apply, val_main_call3_v3_apply, hidx, val_main_call3_v2_apply,
    val_main_call3_v1_apply, val_main_call3_cst_0_apply, c3v0_at, Ideal.ofBits_def, Ideal.maximumf_def, max_start_rowMax,
    Ideal.subf_def]

/-- THE TAIL: the result at `(n, f)` is the log-softmax of row `n` of the second layer's output, at `f`. -/
theorem tail_apply (n : Fin 200000) (f : Fin 2) :
    val_main_v92 (F := Ideal) x0 x1 x2 x3 x4 x5 (ix2 n f)
      = lsm (fun f' => val_main_v91 (F := Ideal) x0 x1 x2 x3 x4 x5 (ix2 n f')) f := by
  have hidx : ∀ k : Fin 2, idx_main_call3_v7 (idx_main_call3_v8 (idx_main_call3_v10 (ix2 n f))) k = ix2 n k :=
    fun k => funext fun a => Fin.ext (by match a with | ⟨0, _⟩ => rfl | ⟨1, _⟩ => rfl)
  rw [val_main_v92_apply, val_main_call3_v10_apply, val_main_call3_v9_apply, val_main_call3_v8_apply,
    val_main_call3_v7_apply, val_main_call3_cst_1_apply, c3v5_at, Ideal.ofBits_def, Ideal.ofBits_zero_f32, zero_add]
  have hs : (∑ k : Fin 2, val_main_call3_v6 (F := Ideal) x0 x1 x2 x3 x4 x5
        (idx_main_call3_v7 (idx_main_call3_v8 (idx_main_call3_v10 (ix2 n f))) k))
      = ∑ k : Fin 2, Ideal.exp (val_main_v91 (F := Ideal) x0 x1 x2 x3 x4 x5 (ix2 n k)
          - rowMax fun f' => val_main_v91 (F := Ideal) x0 x1 x2 x3 x4 x5 (ix2 n f')) :=
    Finset.sum_congr rfl fun k _ => by
      rw [hidx k, val_main_call3_v6_apply, c3v5_at, Ideal.hostUnary_exp_def]
  rw [hs, Ideal.subf_def, Ideal.hostUnary_log_def]
  unfold lsm
  rfl

end Tail

end Cert.ReferenceIdeal.RefValue

end
-- ==== Proof.RefValue.lean ====
/-
  The reference program's result at an index, as a closed formula: the log-softmax of the second graph-convolution
  layer over the first layer's output, every entry of which is replaced by its maximum with zero. The index columns and
  the two per-node scale vectors stay the stages that compute them.
-/
import proofs.«102351_j24489903522241_1_alg».proof.Proof.RefLayers
import proofs.«102351_j24489903522241_1_alg».proof.Proof.RefTail

noncomputable section

open scoped BigOperators

namespace Cert.ReferenceIdeal.RefValue

open Cert.ReferenceIdeal Cert.ReferenceIdeal.Gen Cert.ReferenceIdeal.Read Cert.GraphConv Idealize.ShloMosaic Idealize.ShloMosaic.ValueIdx

/-! ## The result -/

/-- THE REFERENCE'S RESULT at `(n, f)`: the log-softmax of the second layer over the first layer's output. -/
theorem value_apply (x0 : S200000x28.Idx → EReal) (x1 : IVec S2x6400000 32) (x2 : S28x16.Idx → EReal) (x3 : S16.Idx → EReal)
    (x4 : S16x2.Idx → EReal) (x5 : S2.Idx → EReal) (n : Fin 200000) (f : Fin 2) :
    val_main_v92 (F := Ideal) x0 x1 x2 x3 x4 x5 (ix2 n f)
      = lsm (layerR (val_main_v81 (F := Ideal) x1) (val_main_v66 (F := Ideal) x1) (val_main_v73 (F := Ideal) x1)
          (val_main_v87 (F := Ideal) x1) (fun i => val_main_v60 (F := Ideal) x1 (ix1 i))
          (fun i k => max (layerR (val_main_v38 (F := Ideal) x1) (val_main_v23 (F := Ideal) x1) (val_main_v30 (F := Ideal) x1)
            (val_main_v44 (F := Ideal) x1) (fun i => val_main_v17 (F := Ideal) x1 (ix1 i))
            (fun i j => x0 (ix2 i j)) (fun j k => x2 (ix2 j k)) (fun k => x3 (ix1 k)) i k) 0)
          (fun k f' => x4 (ix2 k f')) (fun f' => x5 (ix1 f')) n) f := by
  rw [tail_apply]
  exact congrArg (fun v => lsm v f) (funext fun f' => layer2_closed x0 x1 x2 x3 x4 x5 n f')

end Cert.ReferenceIdeal.RefValue

end
-- ==== Proof.LibScatterAddVec.lean ====
/-
  An accumulating scatter `x.at[idx].add(u)` of a vector `x : [N]` on the host, on the extended reals, read at an
  index.

  Summing the entries of `u : [E]` into the entries of `x` that an integer vector `idx` names lowers to a scatter
  whose body is an addition, with one inserted window axis (the vector's only axis), no update window axis (each
  scatter index carries one scalar) and a trailing index-vector axis of extent one on the scatter indices. Update
  entry `e` lands on entry `i` of the vector exactly when the scatter index `idx (e, 0)`, read as a signed integer,
  is `i`; an index outside `[0, N)` lands nowhere and its entry is dropped. So entry `i` of the result is

      x i + ∑ over the e with idx (e, 0) = i of u e,

  the sum running over the same set of positions as for a table of rows scattered by the same indices.
  The statement takes the dimension numbers as a record built from the literal lists; a printed record with the same
  lists is equal to it by `rfl`.
-/
import Idealize.ShloMosaic.PureOps.Ideal.Laws
import Idealize.ShloMosaic.Lib.ValueIdx
import proofs.«102351_j24489903522241_1_alg».proof.Proof.LibScatterAddRows

noncomputable section

open scoped BigOperators

namespace Cert.LibScatterAddVec

open Idealize.ShloMosaic Idealize.ShloMosaic.ValueIdx
open Cert.LibScatterAddRows (landing)

/-- The dimension numbers of `x.at[idx].add(u)` for a vector `[N]`, scatter indices `[E, 1]`, updates `[E]`. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : ℕ} (wf : ScatterDims.WF ⟨1, ![N]⟩ ⟨2, ![E, 1]⟩ ⟨1, ![E]⟩ [] [0] [0] 1)
  (idx : IVec ⟨2, ![E, 1]⟩ w) (e : Fin E)

/-- On the vector's axis the window starts at the scatter index `idx (e, 0)`, read signed. -/
theorem start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem zero_not_mem_sKept : (0 : Fin 1) ∉ (vecDims N E wf).sKept := by
  simp [ScatterDims.sKept, Shape.kept]

/-- The vector's axis is inserted: the window coordinate there is zero. -/
theorem window_zero : (vecDims N E wf).window (ix1 e) 0 = 0 := by
  unfold ScatterDims.window
  rw [dif_neg (zero_not_mem_sKept wf)]

end Coordinates

section Landing
variable {N E w : ℕ} (wf : ScatterDims.WF ⟨1, ![N]⟩ ⟨2, ![E, 1]⟩ ⟨1, ![E]⟩ [] [0] [0] 1)
  (idx : IVec ⟨2, ![E, 1]⟩ w)

/-- Update entry `e` lands on entry `i` of the vector exactly when its scatter index, read signed, is `i`. -/
theorem resultIdx?_vec (e : Fin E) (i : Fin N) :
    (vecDims N E wf).resultIdx? (ix1 e) idx = some (ix1 i) ↔ (idx (ix2 e (0 : Fin 1))).toInt = (i.val : ℤ) := by
  unfold ScatterDims.resultIdx?
  split
  · rename_i h
    rw [Option.some.injEq]
    have hr := h 0
    rw [start_zero, window_zero] at hr
    constructor
    · intro hf
      have h0 : ((vecDims N E wf).start (ix1 e) idx 0 + ((vecDims N E wf).window (ix1 e) 0 : ℕ)).toNat = i.val :=
        congrArg (fun f => (f 0).val) hf
      rw [start_zero, window_zero] at h0
      omega
    · intro h0
      funext a
      refine Fin.ext ?_
      match a with
      | ⟨0, _⟩ =>
        show ((vecDims N E wf).start (ix1 e) idx 0 + ((vecDims N E wf).window (ix1 e) 0 : ℕ)).toNat = i.val
        rw [start_zero, window_zero]; omega
  · rename_i h
    constructor
    · intro hf; exact absurd hf (by simp)
    · intro h0
      exfalso
      apply h
      intro a
      match a with
      | ⟨0, _⟩ =>
        show 0 ≤ (vecDims N E wf).start (ix1 e) idx 0 + ((vecDims N E wf).window (ix1 e) 0 : ℕ)
          ∧ (vecDims N E wf).start (ix1 e) idx 0 + ((vecDims N E wf).window (ix1 e) 0 : ℕ) < (N : ℤ)
        rw [start_zero, window_zero, h0]
        have := i.isLt
        constructor <;> omega

/-- THE ACCUMULATING SCATTER READ AT `i`: the vector's entry plus the updates summed over the positions whose
    scatter index is `i`. -/
theorem hostScatterAdd_vec_apply (x : (⟨1, ![N]⟩ : Shape).Idx → EReal) (upd : (⟨1, ![E]⟩ : Shape).Idx → EReal)
    (i : Fin N) :
    Ideal.hostScatterAdd (vecDims N E wf) x idx upd (ix1 i) = x (ix1 i) + ∑ e ∈ landing idx i.val, upd (ix1 e) := by
  unfold Ideal.hostScatterAdd
  congr 1
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (resultIdx?_vec wf idx e i).mp (Finset.mem_filter.mp hj).2⟩
  · intro e he
    exact Finset.mem_filter.mpr ⟨Finset.mem_univ _, (resultIdx?_vec wf idx e i).mpr (Finset.mem_filter.mp he).2⟩
  · intro j _
    exact (eq_ix1 j).symm
  · intro e _
    rfl
  · intro j _
    exact congrArg upd (eq_ix1 j)

end Landing

/-- The same for a printed `stablehlo.scatter` with an `add` body whose dimension numbers are these lists. -/
theorem scatterAdd_vec_apply {N E w : ℕ} {φ : FTy}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecDims N E wf)
    (idx : IVec ⟨2, ![E, 1]⟩ w) (x : FVec Ideal ⟨1, ![N]⟩ φ) (upd : FVec Ideal ⟨1, ![E]⟩ φ) (i : Fin N) :
    Host.scatterAdd d x idx upd (ix1 i) = x (ix1 i) + ∑ e ∈ landing idx i.val, upd (ix1 e) := by
  subst hd
  exact hostScatterAdd_vec_apply wf idx x upd i

end Cert.LibScatterAddVec

end
-- ==== Proof.SharedEdges.lean ====
/-
  What the two programs share before their layers: the edge endpoints with the self loops appended, and the per-node
  scale (the inverse square root of a node's degree, zero for a node of degree zero).

  The idealized kernel program's first host operations compute the source and destination vectors and the scale exactly
  as the reference does, operation for operation. The reference's own columns of index words are the two columns built
  from those vectors (the endpoints themselves for a scatter, the wrapped endpoints for a gather), and the scale it
  recomputes for its second layer is the scale of the first. The scale is real at every node: a degree is a finite
  sum of ones, so it is a real number at least zero, its maximum with one is positive, and the inverse square root of a
  positive real is real; a node of degree zero gets zero.
-/
import proofs.«102351_j24489903522241_1_alg».proof.Proof.Gen.KernelIdeal.Frame
import proofs.«102351_j24489903522241_1_alg».proof.Proof.RefRead
import proofs.«102351_j24489903522241_1_alg».proof.Proof.EdgeIndex
import proofs.«102351_j24489903522241_1_alg».proof.Proof.LibScatterAddVec
import proofs.«102351_j24489903522241_1_alg».proof.Proof.LibMeanProj
import proofs.«102351_j24489903522241_1_alg».proof.Proof.LibColumn
import Idealize.ShloMosaic.Lib.StableHlo.Run
import Idealize.ShloMosaic.Lib.Pipeline.Value
import Idealize.ShloMosaic.Lib.IdealHost

set_option maxRecDepth 16384

noncomputable section

open scoped BigOperators

namespace Cert.SharedEdges

open Cert.KernelIdeal Cert.KernelIdeal.Gen Cert.KernelIdeal.Facts Cert.GraphConv
open Idealize.ShloMosaic Idealize.ShloMosaic.TcCoe Idealize.SL.Sem Idealize.ShloMosaic.ValueIdx
open Idealize.ShloMosaic.StableHlo
open Cert.LibScatterAddRows (landing)
open Cert.LibMeanProj (IsReal)

/-! ## The kernel program's first host operations compute the reference's vectors -/

section Kernel

variable (m : (ℓ : Loc nD τ sig) → Buf (Elt Ideal) ℓ) (ρ : Dev nD → PrngReg) (c : Dev nD)

/-- The source endpoints, self loops appended. -/
theorem src_eq : (W1 m ρ c (Proc.devRef .tc main_v3) : S6600000.Idx → BitVec 32)
    = Cert.ReferenceIdeal.Read.val_main_v3 (F := Ideal) (m ((c : Thread nD τ).loc main_arg1)) := by
  dsimp only [W1]
  after_results
  rfl

/-- The destination endpoints, self loops appended. -/
theorem dst_eq : (W1 m ρ c (Proc.devRef .tc main_v6) : S6600000.Idx → BitVec 32)
    = Cert.ReferenceIdeal.Read.val_main_v6 (F := Ideal) (m ((c : Thread nD τ).loc main_arg1)) := by
  dsimp only [W1]
  after_results
  rfl

/-- Which nodes have a positive degree (a degree: ones summed over the edges into the node). -/
theorem positive_eq : (W1 m ρ c (Proc.devRef .tc main_v12) : S200000.Idx → BitVec 1)
    = Cert.ReferenceIdeal.Read.val_main_v13 (F := Ideal) (m ((c : Thread nD τ).loc main_arg1)) := by
  dsimp only [W1]
  after_results
  rfl

/-- The inverse square roots of the degrees raised to at least one. -/
theorem rsqrt_eq : (W1 m ρ c (Proc.devRef .tc main_v15) : S200000.Idx → EReal)
    = Cert.ReferenceIdeal.Read.val_main_v16 (F := Ideal) (m ((c : Thread nD τ).loc main_arg1)) := by
  dsimp only [W1]
  after_results
  rfl

/-- The zero a node of degree zero gets. -/
theorem zero_eq : (W1 m ρ c (Proc.devRef .tc main_cst_3) : S_.Idx → EReal)
    = Cert.ReferenceIdeal.Read.val_main_cst_3 (F := Ideal) := by
  dsimp only [W1]
  after_results
  rfl

/-- The choice between the inverse square root and zero, over any contents of the buffers it reads. -/
theorem where_result (V : Valuation τ sig (Elt Ideal)) :
    (StableHlo.after hostOps0_1 V (Proc.devRef .tc main_v16) : S200000.Idx → EReal)
      = select (V (Proc.devRef .tc main_v12) : S200000.Idx → BitVec 1) (V (Proc.devRef .tc main_v15) : S200000.Idx → EReal)
          (broadcastInDim S200000 ![] bcast_S_S200000 (id (V (Proc.devRef .tc main_cst_3) : S_.Idx → EReal))) := by
  after_results
  rfl

/-- The scale as a vector. -/
theorem scale_eq : (W2 m ρ c (Proc.devRef .tc main_v16) : S200000.Idx → EReal)
    = Cert.ReferenceIdeal.Read.val_main_v17 (F := Ideal) (m ((c : Thread nD τ).loc main_arg1)) := by
  dsimp only [W2]
  rw [where_result (W1 m ρ c), positive_eq m ρ c, rsqrt_eq m ρ c, zero_eq m ρ c]
  rfl

/-- The re-laying of the scale as a column, over any contents of the buffer it reads. -/
theorem column_result (V : Valuation τ sig (Elt Ideal)) :
    (StableHlo.after hostOps0_2 V (Proc.devRef .tc main_v17) : S200000x1.Idx → EReal)
      = shapeCast S200000x1 (V (Proc.devRef .tc main_v16) : S200000.Idx → EReal) shapeCasts_S200000_S200000x1 := by
  after_results
  rfl

/-- The scale as a column: the reference's scale vector re-laid. -/
theorem dis_eq : (W3 m ρ c (Proc.devRef .tc main_v17) : S200000x1.Idx → EReal)
    = shapeCast S200000x1 (Cert.ReferenceIdeal.Read.val_main_v17 (F := Ideal) (m ((c : Thread nD τ).loc main_arg1)))
        shapeCasts_S200000_S200000x1 := by
  dsimp only [W3]
  rw [column_result (W2 m ρ c), scale_eq m ρ c]

/-- The scale of node `i`. -/
theorem dis_apply (i : Fin 200000) :
    (W3 m ρ c (Proc.devRef .tc main_v17) : S200000x1.Idx → EReal) (ix2 i (0 : Fin 1))
      = Cert.ReferenceIdeal.Read.val_main_v17 (F := Ideal) (m ((c : Thread nD τ).loc main_arg1)) (ix1 i) := by
  rw [dis_eq]
  exact Cert.LibColumn.shapeCast_a_a1_apply _ shapeCasts_S200000_S200000x1 i (0 : Fin 1)

end Kernel

/-! ## The reference's columns of index words, and its second scale -/

section Reference

variable (x1 : (⟨Cert.ReferenceIdeal.S2x6400000, .i32⟩ : BufTy).Contents (Elt Ideal))

/-- The wrapped source endpoints as a column, each time the reference builds them. -/
theorem v23_eq : Cert.ReferenceIdeal.Read.val_main_v23 (F := Ideal) x1
    = startIdx Cert.ReferenceIdeal.Gen.bcast_S6600000_S6600000x1_0 Cert.ReferenceIdeal.Gen.bcast_S_S6600000
        (Cert.ReferenceIdeal.Read.val_main_v3 (F := Ideal) x1) := rfl
theorem v38_eq : Cert.ReferenceIdeal.Read.val_main_v38 (F := Ideal) x1
    = startIdx Cert.ReferenceIdeal.Gen.bcast_S6600000_S6600000x1_0 Cert.ReferenceIdeal.Gen.bcast_S_S6600000
        (Cert.ReferenceIdeal.Read.val_main_v3 (F := Ideal) x1) := rfl
theorem v66_eq : Cert.ReferenceIdeal.Read.val_main_v66 (F := Ideal) x1
    = startIdx Cert.ReferenceIdeal.Gen.bcast_S6600000_S6600000x1_0 Cert.ReferenceIdeal.Gen.bcast_S_S6600000
        (Cert.ReferenceIdeal.Read.val_main_v3 (F := Ideal) x1) := rfl
theorem v81_eq : Cert.ReferenceIdeal.Read.val_main_v81 (F := Ideal) x1
    = startIdx Cert.ReferenceIdeal.Gen.bcast_S6600000_S6600000x1_0 Cert.ReferenceIdeal.Gen.bcast_S_S6600000
        (Cert.ReferenceIdeal.Read.val_main_v3 (F := Ideal) x1) := rfl

/-- The wrapped destination endpoints as a column. -/
theorem v30_eq : Cert.ReferenceIdeal.Read.val_main_v30 (F := Ideal) x1
    = startIdx Cert.ReferenceIdeal.Gen.bcast_S6600000_S6600000x1_0 Cert.ReferenceIdeal.Gen.bcast_S_S6600000
        (Cert.ReferenceIdeal.Read.val_main_v6 (F := Ideal) x1) := rfl
theorem v73_eq : Cert.ReferenceIdeal.Read.val_main_v73 (F := Ideal) x1
    = startIdx Cert.ReferenceIdeal.Gen.bcast_S6600000_S6600000x1_0 Cert.ReferenceIdeal.Gen.bcast_S_S6600000
        (Cert.ReferenceIdeal.Read.val_main_v6 (F := Ideal) x1) := rfl

/-- The destination endpoints as a column. -/
theorem v44_eq : Cert.ReferenceIdeal.Read.val_main_v44 (F := Ideal) x1
    = scatIdx Cert.ReferenceIdeal.Gen.bcast_S6600000_S6600000x1_0 (Cert.ReferenceIdeal.Read.val_main_v6 (F := Ideal) x1) := rfl
theorem v87_eq : Cert.ReferenceIdeal.Read.val_main_v87 (F := Ideal) x1
    = scatIdx Cert.ReferenceIdeal.Gen.bcast_S6600000_S6600000x1_0 (Cert.ReferenceIdeal.Read.val_main_v6 (F := Ideal) x1) := rfl

/-- The scale the reference recomputes for its second layer is the first layer's. -/
theorem v60_eq : Cert.ReferenceIdeal.Read.val_main_v60 (F := Ideal) x1
    = Cert.ReferenceIdeal.Read.val_main_v17 (F := Ideal) x1 := rfl

end Reference

/-! ## The scale is real at every node -/

section Real

variable (x1 : (⟨Cert.ReferenceIdeal.S2x6400000, .i32⟩ : BufTy).Contents (Elt Ideal))

/-- A choice between two reals is real. -/
theorem isReal_select (b : BitVec 1) {u v : EReal} (hu : IsReal u) (hv : IsReal v) : IsReal (Scalar.select b u v) := by
  unfold Scalar.select
  split
  · exact hu
  · exact hv

/-- The inverse square root of a positive real is real. -/
theorem isReal_rsqrt_of_pos (r : ℝ) (hr : 0 < r) : IsReal (Ideal.rsqrt (r : EReal)) := by
  rw [Ideal.rsqrt_coe, if_neg (not_lt.mpr hr.le), if_neg hr.ne']
  exact ⟨_, rfl⟩

/-- The inverse square root of a real raised to at least one is real. -/
theorem isReal_rsqrt_max_one (r : ℝ) : IsReal (Ideal.rsqrt (max (r : EReal) 1)) := by
  rcases le_total r 1 with h | h
  · rw [max_eq_right (show (r : EReal) ≤ 1 by rw [← EReal.coe_one]; exact EReal.coe_le_coe_iff.mpr h), ← EReal.coe_one]
    exact isReal_rsqrt_of_pos 1 one_pos
  · rw [max_eq_left (show (1 : EReal) ≤ (r : EReal) by rw [← EReal.coe_one]; exact EReal.coe_le_coe_iff.mpr h)]
    exact isReal_rsqrt_of_pos r (lt_of_lt_of_le one_pos h)

/-- Ones summed over a finite set: the number of its elements. -/
theorem sum_ones {ι : Type*} (s : Finset ι) : ∑ _e ∈ s, (1 : EReal) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- A node's degree is the number of edges landing on it: a real. -/
theorem degree_apply (i : Fin 200000) :
    Cert.ReferenceIdeal.Read.val_main_v11 (F := Ideal) x1 (ix1 i)
      = (((landing (Cert.ReferenceIdeal.Read.val_main_v10 (F := Ideal) x1) i.val).card : ℝ) : EReal) := by
  unfold Cert.ReferenceIdeal.Read.val_main_v11
  refine (Cert.LibScatterAddVec.scatterAdd_vec_apply (N := 200000) (E := 6600000)
    Cert.ReferenceIdeal.scatter_S200000_S6600000x1_S6600000_n_0_0_1.wf
    Cert.ReferenceIdeal.scatter_S200000_S6600000x1_S6600000_n_0_0_1 rfl
    (Cert.ReferenceIdeal.Read.val_main_v10 (F := Ideal) x1) (Cert.ReferenceIdeal.Read.val_main_v9 (F := Ideal))
    (Cert.ReferenceIdeal.Read.val_main_v8 (F := Ideal)) i).trans ?_
  have h9 : Cert.ReferenceIdeal.Read.val_main_v9 (F := Ideal) (ix1 i) = 0 := by
    rw [Cert.ReferenceIdeal.Read.val_main_v9_apply, Cert.ReferenceIdeal.Read.val_main_cst_0_apply]
    exact Ideal.ofBits_zero_f32
  have h8 : ∀ e : Fin 6600000, Cert.ReferenceIdeal.Read.val_main_v8 (F := Ideal) (ix1 e) = 1 := fun e => by
    rw [Cert.ReferenceIdeal.Read.val_main_v8_apply, Cert.ReferenceIdeal.Read.val_main_cst_apply]
    exact Ideal.ofBits_one_f32
  rw [h9, zero_add, Finset.sum_congr rfl fun e _ => h8 e]
  exact sum_ones _

/-- The per-node scale is real. -/
theorem dis_real (i : Fin 200000) : IsReal (Cert.ReferenceIdeal.Read.val_main_v17 (F := Ideal) x1 (ix1 i)) := by
  rw [Cert.ReferenceIdeal.Read.val_main_v17_apply]
  refine isReal_select _ ?_ ?_
  · rw [Cert.ReferenceIdeal.Read.val_main_v16_apply, Cert.ReferenceIdeal.Read.val_main_v15_apply,
      Cert.ReferenceIdeal.Read.val_main_v14_apply, Cert.ReferenceIdeal.Read.val_main_cst_2_apply, degree_apply]
    rw [Ideal.hostUnary_rsqrt_def, Ideal.maximumf_def, Ideal.ofBits_def, Ideal.ofBits_one_f32]
    exact isReal_rsqrt_max_one _
  · rw [Cert.ReferenceIdeal.Read.val_main_call0_v1_apply, Cert.ReferenceIdeal.Read.val_main_call0_v0_apply,
      Cert.ReferenceIdeal.Read.val_main_cst_3_apply]
    show IsReal (Ideal.ofBits .f32 0x00000000#32)
    rw [Ideal.ofBits_zero_f32]
    exact Cert.LibMeanProj.isReal_zero

end Real

end Cert.SharedEdges

end
-- ==== Proof.Bridge.lean ====
/-
  The two idealized programs compute one function of the arguments. Index by index the kernel program's result is two
  graph-convolution layers in the "scaled first" arrangement under a row log-softmax, the reference's the same two layers
  in the "scaled per edge" arrangement; both read the edge list through the same two columns of index words and the same
  per-node scale, and on real inputs the two arrangements agree (the scale of a real row moves out of the projection, an
  edge into a node names that node, and a real factor moves across the sum over edges). The hidden features are real
  because the inputs and the scale are, which is what the second layer's instance of the law asks.
-/
import proofs.«102351_j24489903522241_1_alg».proof.Proof.KernelValue
import proofs.«102351_j24489903522241_1_alg».proof.Proof.RefValue
import proofs.«102351_j24489903522241_1_alg».proof.Proof.SharedEdges
import proofs.«102351_j24489903522241_1_alg».proof.Proof.EdgeIndex
import proofs.«102351_j24489903522241_1_alg».proof.Proof.GraphLayer

set_option maxRecDepth 16384

noncomputable section

open scoped BigOperators

namespace Cert.Bridge

open Cert.KernelIdeal Cert.KernelIdeal.Gen Cert.KernelIdeal.Facts Cert.GraphConv
open Idealize.ShloMosaic Idealize.ShloMosaic.TcCoe Idealize.SL.Sem Idealize.ShloMosaic.ValueIdx
open Cert.LibMeanProj (IsReal)
open Cert.LibScatterAddRows (landing)

variable (m : (ℓ : Loc nD τ sig) → Buf (Elt Ideal) ℓ) (ρ : Dev nD → PrngReg) (c : Dev nD)

/-- The kernel program's result array is the reference's result term of the same arguments, entry by entry, when the
    float arguments are real. -/
theorem results_agree
    (r0 : ∀ j, IsReal (m ((c : Thread nD τ).loc main_arg0) j)) (r2 : ∀ j, IsReal (m ((c : Thread nD τ).loc main_arg2) j))
    (r3 : ∀ j, IsReal (m ((c : Thread nD τ).loc main_arg3) j)) (r4 : ∀ j, IsReal (m ((c : Thread nD τ).loc main_arg4) j))
    (r5 : ∀ j, IsReal (m ((c : Thread nD τ).loc main_arg5) j)) (n : Fin 200000) (f : Fin 2) :
    W9 m ρ c (Proc.devRef .tc main_v43) (ix2 n f)
      = Cert.ReferenceIdeal.Read.val_main_v92 (F := Ideal) (m ((c : Thread nD τ).loc main_arg0))
          (m ((c : Thread nD τ).loc main_arg1)) (m ((c : Thread nD τ).loc main_arg2))
          (m ((c : Thread nD τ).loc main_arg3)) (m ((c : Thread nD τ).loc main_arg4))
          (m ((c : Thread nD τ).loc main_arg5)) (ix2 n f) := by
  rw [Cert.ReferenceIdeal.RefValue.value_apply]
  rw [Cert.KernelIdeal.Value.value_apply m ρ c _ _ (Cert.SharedEdges.src_eq m ρ c) (Cert.SharedEdges.dst_eq m ρ c)
    (W3 m ρ c (Proc.devRef .tc main_v17)) rfl _ rfl _ rfl _ rfl _ rfl _ rfl n f]
  refine congrArg (fun v : Fin 2 → EReal => lsm v f) (funext fun f' => ?_)
  have hdis : (fun j : Fin 200000 => W3 m ρ c (Proc.devRef .tc main_v17) (ix2 j (0 : Fin 1)))
      = fun j => Cert.ReferenceIdeal.Read.val_main_v17 (F := Ideal) (m ((c : Thread nD τ).loc main_arg1)) (ix1 j) :=
    funext (Cert.SharedEdges.dis_apply m ρ c)
  unfold Cert.KernelIdeal.Value.hidden
  rw [hdis]
  have hdr : ∀ i : Fin 200000, IsReal (Cert.ReferenceIdeal.Read.val_main_v17 (F := Ideal)
      (m ((c : Thread nD τ).loc main_arg1)) (ix1 i)) := fun i => Cert.SharedEdges.dis_real _ i
  have hdst := node_start_of_landing bcast_S6600000_S6600000x1_0 bcast_S_S6600000
    (Cert.ReferenceIdeal.Read.val_main_v6 (F := Ideal) (m ((c : Thread nD τ).loc main_arg1)))
  have hin := layerK_eq_layerR
    (Cert.KernelIdeal.Value.srcCol (Cert.ReferenceIdeal.Read.val_main_v3 (F := Ideal) (m ((c : Thread nD τ).loc main_arg1))))
    (Cert.KernelIdeal.Value.srcCol (Cert.ReferenceIdeal.Read.val_main_v6 (F := Ideal) (m ((c : Thread nD τ).loc main_arg1))))
    (Cert.KernelIdeal.Value.dstCol (Cert.ReferenceIdeal.Read.val_main_v6 (F := Ideal) (m ((c : Thread nD τ).loc main_arg1))))
    (fun j => Cert.ReferenceIdeal.Read.val_main_v17 (F := Ideal) (m ((c : Thread nD τ).loc main_arg1)) (ix1 j))
    (fun j a => m ((c : Thread nD τ).loc main_arg0) (ix2 j a)) (fun a b => m ((c : Thread nD τ).loc main_arg2) (ix2 a b))
    (fun b => m ((c : Thread nD τ).loc main_arg3) (ix1 b)) hdr (fun i k => r0 _) (fun k g => r2 _) hdst
  refine (layerK_eq_layerR _
    (Cert.KernelIdeal.Value.srcCol (Cert.ReferenceIdeal.Read.val_main_v6 (F := Ideal) (m ((c : Thread nD τ).loc main_arg1))))
    _ _ _ _ _ hdr
    (fun i k => (isReal_layerK _ _ _ _ _ _ hdr (fun i k => r0 _) (fun k g => r2 _) (fun b => r3 _) i k).max
      Cert.LibMeanProj.isReal_zero)
    (fun k g => r4 _) hdst n f').trans ?_
  simp only [hin]
  rw [Cert.SharedEdges.v81_eq, Cert.SharedEdges.v66_eq, Cert.SharedEdges.v73_eq, Cert.SharedEdges.v87_eq,
    Cert.SharedEdges.v60_eq, Cert.SharedEdges.v38_eq, Cert.SharedEdges.v23_eq, Cert.SharedEdges.v30_eq,
    Cert.SharedEdges.v44_eq]

end Cert.Bridge

end
-- ==== Proof.lean ====
/-
  The certificate's five claims for the two-layer graph convolution.

  Frames: the word-level kernel program's and the idealized one's are the generated frame certificates (four class-A
  regions each); the reference has no region, and its frame is its run with the result dropped.
  Preservation: the ideal pass rewrote no operation, so there is nothing to state.
  Algebraic: the idealized kernel program runs and ends with its result array at the contents the last region leaves; the
  reference runs and ends with its result at its composed term; under the precondition every float input is real, and on
  real inputs the two are equal entry by entry: both are two graph-convolution layers under a row log-softmax, the kernel's
  with each row scaled by the inverse square root of its degree before the projection and the aggregate scaled after the
  sum over edges, the reference's with every edge's projected row scaled by the product of its two end nodes' scales.
-/
import proofs.«102351_j24489903522241_1_alg».proof.Defs
import proofs.«102351_j24489903522241_1_alg».proof.Proof.Gen.Kernel
import proofs.«102351_j24489903522241_1_alg».proof.Proof.Gen.Kernel.Skeleton
import proofs.«102351_j24489903522241_1_alg».proof.Proof.Gen.Kernel.Launch
import proofs.«102351_j24489903522241_1_alg».proof.Proof.Gen.Kernel.Points
import proofs.«102351_j24489903522241_1_alg».proof.Proof.Gen.Kernel.Frame
import proofs.«102351_j24489903522241_1_alg».proof.Proof.Gen.KernelIdeal
import proofs.«102351_j24489903522241_1_alg».proof.Proof.Gen.KernelIdeal.Skeleton
import proofs.«102351_j24489903522241_1_alg».proof.Proof.Gen.KernelIdeal.Launch
import proofs.«102351_j24489903522241_1_alg».proof.Proof.Gen.KernelIdeal.Points
import proofs.«102351_j24489903522241_1_alg».proof.Proof.Gen.KernelIdeal.Frame
import proofs.«102351_j24489903522241_1_alg».proof.Proof.Gen.ReferenceIdeal
import proofs.«102351_j24489903522241_1_alg».proof.Proof.Gen.Pre_finite_inputs
import proofs.«102351_j24489903522241_1_alg».proof.Proof.RefRead
import proofs.«102351_j24489903522241_1_alg».proof.Proof.KernelRun
import proofs.«102351_j24489903522241_1_alg».proof.Proof.FiniteInputs
import proofs.«102351_j24489903522241_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run, and from memories that agree on the arguments they end with equal results. -/
theorem algebraic : Cert.algebraic_KernelIdeal_ReferenceIdeal := by
  intro m ρ m' ρ' hpre hagree
  refine ⟨fun c => Cert.KernelIdeal.Gen.W9 m ρ c (Proc.devRef .tc Cert.KernelIdeal.main_v43),
    Cert.KernelIdeal.RunValue.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨r0, r2, r3, r4, r5⟩ := Cert.Pre_finite_inputs.Reals.reals_of_pre _ _ _ _ _ _ (hpre c)
  rw [Cert.ReferenceIdeal.Read.val_main_v92_eq, (hagree c).1, (hagree c).2.1, (hagree c).2.2.1, (hagree c).2.2.2.1,
    (hagree c).2.2.2.2.1, (hagree c).2.2.2.2.2]
  funext j
  obtain ⟨n, f, rfl⟩ : ∃ (n : Fin 200000) (f : Fin 2), j = ix2 n f := ⟨j 0, j 1, eq_ix2 j⟩
  exact (Cert.Bridge.results_agree m ρ c r0 r2 r3 r4 r5 n f).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
